-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x5 : Shape := ⟨2, ![256, 5]⟩
abbrev S5 : Shape := ⟨1, ![5]⟩
abbrev S5x5 : Shape := ⟨2, ![5, 5]⟩
abbrev S5x7 : Shape := ⟨2, ![5, 7]⟩
abbrev S7 : Shape := ⟨1, ![7]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x5 : S_.BroadcastsInDim S256x5 (![] : Fin 0 → Fin S256x5.rank)
  reducesTo_S256x5_S_d0_1 : S256x5.ReducesTo [0, 1] S_
  bcast_S_S5 : S_.BroadcastsInDim S5 (![] : Fin 0 → Fin S5.rank)
  reducesTo_S5_S_d0 : S5.ReducesTo [0] S_
  bcast_S_S5x5 : S_.BroadcastsInDim S5x5 (![] : Fin 0 → Fin S5x5.rank)
  reducesTo_S5x5_S_d0_1 : S5x5.ReducesTo [0, 1] S_
  bcast_S_S5x7 : S_.BroadcastsInDim S5x7 (![] : Fin 0 → Fin S5x7.rank)
  reducesTo_S5x7_S_d0_1 : S5x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S5 .f32) (main_arg6 : FVec F S5x7 .f32) (main_arg7 : FVec F S7 .f32) (main_v13 : IVec S_ 1) (main_v16 : IVec S5x5 1) : IVec S_ 1 :=
  let main_c_5 : IVec S_ 1 := constantI S_ 1 1#1
  let main_v17 : IVec S_ 1 := (fun x v => Host.reduce IntOp.andi x v reducesTo_S5x5_S_d0_1 h_S_) main_v16 main_c_5
  let main_v18 : IVec S_ 1 := andi main_v13 main_v17
  let main_v19 : FVec F S5 .f32 := Host.absf main_arg5
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_v24 : FVec F S5x7 .f32 := Host.absf main_arg6
  let main_cst_8 : FVec F S_ .f32 := constant S_ .f32 0x7F800000#32
  let main_v25 : FVec F S5x7 .f32 := broadcastInDim S5x7 ![] bcast_S_S5x7 main_cst_8
  let main_v26 : IVec S5x7 1 := cmpf .olt main_v24 main_v25
  let main_c_9 : IVec S_ 1 := constantI S_ 1 1#1
  let main_v27 : IVec S_ 1 := (fun x v => Host.reduce IntOp.andi x v reducesTo_S5x7_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S100000x256 .f32) (main_arg1 : IVec S2x3200000 32) (main_arg2 : FVec F S256x5 .f32) (main_arg3 : FVec F S5 .f32) (main_arg4 : FVec F S5x5 .f32) (main_arg5 : FVec F S5 .f32) (main_arg6 : FVec F S5x7 .f32) (main_arg7 : FVec F S7 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x5 .f32 := Host.absf main_arg2
  let main_cst_0 : FVec F S_ .f32 := constant S_ .f32 0x7F800000#32
  let main_v5 : FVec F S256x5 .f32 := broadcastInDim S256x5 ![] bcast_S_S256x5 main_cst_0
  let main_v6 : IVec S256x5 1 := cmpf .olt main_v4 main_v5
  let main_c_1 : IVec S_ 1 := constantI S_ 1 1#1
  let main_v7 : IVec S_ 1 := (fun x v => Host.reduce IntOp.andi x v reducesTo_S256x5_S_d0_1 h_S_) main_v6 main_c_1
  let main_v8 : IVec S_ 1 := andi main_v3 main_v7
  let main_v9 : FVec F S5 .f32 := Host.absf main_arg3
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S5x5 .f32 := Host.absf main_arg4
  let main_cst_4 : FVec F S_ .f32 := constant S_ .f32 0x7F800000#32
  let main_v15 : FVec F S5x5 .f32 := broadcastInDim S5x5 ![] bcast_S_S5x5 main_cst_4
  let main_v16 : IVec S5x5 1 := cmpf .olt main_v14 main_v15
  fn_part1 (F := F) main_arg5 main_arg6 main_arg7 main_v13 main_v16
-- ==== Kernel.lean ====
abbrev S100000x256 : Shape := ⟨2, ![100000, 256]⟩
abbrev S2x3200000 : Shape := ⟨2, ![2, 3200000]⟩
abbrev S256x5 : Shape := ⟨2, ![256, 5]⟩
abbrev S5 : Shape := ⟨1, ![5]⟩
abbrev S5x5 : Shape := ⟨2, ![5, 5]⟩
abbrev S5x7 : Shape := ⟨2, ![5, 7]⟩
abbrev S7 : Shape := ⟨1, ![7]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x5 : Shape := ⟨2, ![100000, 5]⟩
abbrev S5000x256 : Shape := ⟨2, ![5000, 256]⟩
abbrev S5000x5 : Shape := ⟨2, ![5000, 5]⟩
abbrev S3200000x5 : Shape := ⟨2, ![3200000, 5]⟩
abbrev S1x5 : Shape := ⟨2, ![1, 5]⟩
abbrev S5000x1 : Shape := ⟨2, ![5000, 1]⟩
abbrev S1x7 : Shape := ⟨2, ![1, 7]⟩
abbrev S100000x7 : Shape := ⟨2, ![100000, 7]⟩
abbrev S5000x7 : Shape := ⟨2, ![5000, 7]⟩

abbrev nBuf : Space → Nat
  | .hbm => 83
  | .vmem => 34
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x5, .f32⟩
  | .hbm, ⟨3, _⟩ => ⟨S5, .f32⟩
  | .hbm, ⟨4, _⟩ => ⟨S5x5, .f32⟩
  | .hbm, ⟨5, _⟩ => ⟨S5, .f32⟩
  | .hbm, ⟨6, _⟩ => ⟨S5x7, .f32⟩
  | .hbm, ⟨7, _⟩ => ⟨S7, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000, .f32⟩
  | .hbm, ⟨42, _⟩ => ⟨S3200000, .f32⟩
  | .hbm, ⟨43, _⟩ => ⟨S100000x5, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x5, .f32⟩
  | .hbm, ⟨53, _⟩ => ⟨S3200000x1, .f32⟩
  | .hbm, ⟨54, _⟩ => ⟨S3200000x5, .f32⟩
  | .hbm, ⟨55, _⟩ => ⟨S3200000x5, .f32⟩
  | .hbm, ⟨56, _⟩ => ⟨S_, .f32⟩
  | .hbm, ⟨57, _⟩ => ⟨S100000x5, .f32⟩
  | .hbm, ⟨58, _⟩ => ⟨S3200000x1, .i32⟩
  | .hbm, ⟨59, _⟩ => ⟨S100000x5, .f32⟩
  | .hbm, ⟨60, _⟩ => ⟨S1x5, .f32⟩
  | .hbm, ⟨61, _⟩ => ⟨S100000x5, .f32⟩
  | .hbm, ⟨62, _⟩ => ⟨S100000x5, .f32⟩
  | .hbm, ⟨63, _⟩ => ⟨S_, .i32⟩
  | .hbm, ⟨64, _⟩ => ⟨S3200000, .i32⟩
  | .hbm, ⟨65, _⟩ => ⟨S3200000, .i1⟩
  | .hbm, ⟨66, _⟩ => ⟨S_, .i32⟩
  | .hbm, ⟨67, _⟩ => ⟨S3200000, .i32⟩
  | .hbm, ⟨68, _⟩ => ⟨S3200000, .i32⟩
  | .hbm, ⟨69, _⟩ => ⟨S3200000, .i32⟩
  | .hbm, ⟨70, _⟩ => ⟨S3200000x1, .i32⟩
  | .hbm, ⟨71, _⟩ => ⟨S3200000x5, .f32⟩
  | .hbm, ⟨72, _⟩ => ⟨S3200000x1, .f32⟩
  | .hbm, ⟨73, _⟩ => ⟨S3200000x5, .f32⟩
  | .hbm, ⟨74, _⟩ => ⟨S3200000x5, .f32⟩
  | .hbm, ⟨75, _⟩ => ⟨S_, .f32⟩
  | .hbm, ⟨76, _⟩ => ⟨S100000x5, .f32⟩
  | .hbm, ⟨77, _⟩ => ⟨S3200000x1, .i32⟩
  | .hbm, ⟨78, _⟩ => ⟨S100000x5, .f32⟩
  | .hbm, ⟨79, _⟩ => ⟨S1x5, .f32⟩
  | .hbm, ⟨80, _⟩ => ⟨S100000x5, .f32⟩
  | .hbm, ⟨81, _⟩ => ⟨S1x7, .f32⟩
  | .hbm, ⟨82, _⟩ => ⟨S100000x7, .f32⟩
  | .local _ .vmem, ⟨0, _⟩ => ⟨S5000x256, .f32⟩
  | .local _ .vmem, ⟨1, _⟩ => ⟨S5000x256, .f32⟩
  | .local _ .vmem, ⟨2, _⟩ => ⟨S256x5, .f32⟩
  | .local _ .vmem, ⟨3, _⟩ => ⟨S5000x5, .f32⟩
  | .local _ .vmem, ⟨4, _⟩ => ⟨S5000x5, .f32⟩
  | .local _ .vmem, ⟨5, _⟩ => ⟨S5000x5, .f32⟩
  | .local _ .vmem, ⟨6, _⟩ => ⟨S5000x5, .f32⟩
  | .local _ .vmem, ⟨7, _⟩ => ⟨S5000x5, .f32⟩
  | .local _ .vmem, ⟨8, _⟩ => ⟨S5000x5, .f32⟩
  | .local _ .vmem, ⟨9, _⟩ => ⟨S5000x1, .f32⟩
  | .local _ .vmem, ⟨10, _⟩ => ⟨S5000x1, .f32⟩
  | .local _ .vmem, ⟨11, _⟩ => ⟨S1x5, .f32⟩
  | .local _ .vmem, ⟨12, _⟩ => ⟨S5000x5, .f32⟩
  | .local _ .vmem, ⟨13, _⟩ => ⟨S5000x5, .f32⟩
  | .local _ .vmem, ⟨14, _⟩ => ⟨S5000x5, .f32⟩
  | .local _ .vmem, ⟨15, _⟩ => ⟨S5000x5, .f32⟩
  | .local _ .vmem, ⟨16, _⟩ => ⟨S5x5, .f32⟩
  | .local _ .vmem, ⟨17, _⟩ => ⟨S5000x5, .f32⟩
  | .local _ .vmem, ⟨18, _⟩ => ⟨S5000x5, .f32⟩
  | .local _ .vmem, ⟨19, _⟩ => ⟨S5000x5, .f32⟩
  | .local _ .vmem, ⟨20, _⟩ => ⟨S5000x5, .f32⟩
  | .local _ .vmem, ⟨21, _⟩ => ⟨S5000x5, .f32⟩
  | .local _ .vmem, ⟨22, _⟩ => ⟨S5000x5, .f32⟩
  | .local _ .vmem, ⟨23, _⟩ => ⟨S5000x1, .f32⟩
  | .local _ .vmem, ⟨24, _⟩ => ⟨S5000x1, .f32⟩
  | .local _ .vmem, ⟨25, _⟩ => ⟨S1x5, .f32⟩
  | .local _ .vmem, ⟨26, _⟩ => ⟨S5000x5, .f32⟩
  | .local _ .vmem, ⟨27, _⟩ => ⟨S5000x5, .f32⟩
  | .local _ .vmem, ⟨28, _⟩ => ⟨S5000x5, .f32⟩
  | .local _ .vmem, ⟨29, _⟩ => ⟨S5000x5, .f32⟩
  | .local _ .vmem, ⟨30, _⟩ => ⟨S5x7, .f32⟩
  | .local _ .vmem, ⟨31, _⟩ => ⟨S1x7, .f32⟩
  | .local _ .vmem, ⟨32, _⟩ => ⟨S5000x7, .f32⟩
  | .local _ .vmem, ⟨33, _⟩ => ⟨S5000x7, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x5 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x5 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S5x5 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x5 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x5 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x5 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x5 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x5 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x5 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S5x7 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x7 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x7 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x5_S256x5_0_0 : ∀ a, (![0, 0] : Fin 2 → Nat) a + S256x5.size a ≤ S256x5.size a
  h_S256x5 : 0 < S256x5.numel
  inb_S5000x5_S5000x5_0_0 : ∀ a, (![0, 0] : Fin 2 → Nat) a + S5000x5.size a ≤ S5000x5.size a
  h_S5000x5 : 0 < S5000x5.numel
  bcast_S3200000x1_S3200000x5_0_1 : S3200000x1.BroadcastsInDim S3200000x5 (![0, 1] : Fin 2 → Fin S3200000x5.rank)
  bcast_S_S100000x5 : S_.BroadcastsInDim S100000x5 (![] : Fin 0 → Fin S100000x5.rank)
  shapeCasts_S5_S1x5 : S5.ShapeCasts S1x5
  shapeCasts_S5000x5_S5000x5 : S5000x5.ShapeCasts S5000x5
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x5 : S5000x1.Broadcasts S5000x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S5000x5 : S1x5.Broadcasts S5000x5
  inb_S5x5_S5x5_0_0 : ∀ a, (![0, 0] : Fin 2 → Nat) a + S5x5.size a ≤ S5x5.size a
  h_S5x5 : 0 < S5x5.numel
  shapeCasts_S7_S1x7 : S7.ShapeCasts S1x7
  inb_S5x7_S5x7_0_0 : ∀ a, (![0, 0] : Fin 2 → Nat) a + S5x7.size a ≤ S5x7.size a
  h_S5x7 : 0 < S5x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  inb_S5000x7_S5000x7_0_0 : ∀ a, (![0, 0] : Fin 2 → Nat) a + S5000x7.size a ≤ S5000x7.size a
  h_S5000x7 : 0 < S5000x7.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x256_S256x5_S5000x5_1_0_0_1_n_n_wf : DotDims.WF S5000x256 S256x5 S5000x5 [1] [0] [0] [1] [] []
  gather_S100000x5_S3200000x1_S3200000x5_1_0_n_n_0_1_15_wf : GatherDims.WF S100000x5 S3200000x1 S3200000x5 [1] [0] [] [0] [] 1 ![1, 5]
  scatter_S100000x5_S3200000x1_S3200000x5_1_0_0_1_wf : ScatterDims.WF S100000x5 S3200000x1 S3200000x5 [1] [0] [0] 1
  dot_S5000x5_S5x5_S5000x5_1_0_0_1_n_n_wf : DotDims.WF S5000x5 S5x5 S5000x5 [1] [0] [0] [1] [] []
  dot_S5000x5_S5x7_S5000x7_1_0_0_1_n_n_wf : DotDims.WF S5000x5 S5x7 S5000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x5.size a ≤ S256x5.size a
  hwx0_1 : ∀ i : grid0.Coords, EltTy.bits .f32 = 32 ∨ (Rect.block (s := S256x5) S256x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x5.size a ≤ S100000x5.size a
  hwx0_2 : ∀ i : grid0.Coords, EltTy.bits .f32 = 32 ∨ (Rect.block (s := S100000x5) S5000x5.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x5.size a ≤ S100000x5.size a
  hwx1_0 : ∀ i : grid1.Coords, EltTy.bits .f32 = 32 ∨ (Rect.block (s := S100000x5) S5000x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x5.size a ≤ S100000x5.size a
  hwx1_1 : ∀ i : grid1.Coords, EltTy.bits .f32 = 32 ∨ (Rect.block (s := S100000x5) S5000x5.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x5.size a ≤ S1x5.size a
  hwx1_3 : ∀ i : grid1.Coords, EltTy.bits .f32 = 32 ∨ (Rect.block (s := S1x5) S1x5.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x5.size a ≤ S100000x5.size a
  hwx1_4 : ∀ i : grid1.Coords, EltTy.bits .f32 = 32 ∨ (Rect.block (s := S100000x5) S5000x5.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x5.size a ≤ S100000x5.size a
  hwx2_0 : ∀ i : grid2.Coords, EltTy.bits .f32 = 32 ∨ (Rect.block (s := S100000x5) S5000x5.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S5x5.size a ≤ S5x5.size a
  hwx2_1 : ∀ i : grid2.Coords, EltTy.bits .f32 = 32 ∨ (Rect.block (s := S5x5) S5x5.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x5.size a ≤ S100000x5.size a
  hwx2_2 : ∀ i : grid2.Coords, EltTy.bits .f32 = 32 ∨ (Rect.block (s := S100000x5) S5000x5.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x5.size a ≤ S100000x5.size a
  hwx3_0 : ∀ i : grid3.Coords, EltTy.bits .f32 = 32 ∨ (Rect.block (s := S100000x5) S5000x5.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x5.size a ≤ S100000x5.size a
  hwx3_1 : ∀ i : grid3.Coords, EltTy.bits .f32 = 32 ∨ (Rect.block (s := S100000x5) S5000x5.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x5.size a ≤ S1x5.size a
  hwx3_3 : ∀ i : grid3.Coords, EltTy.bits .f32 = 32 ∨ (Rect.block (s := S1x5) S1x5.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x5.size a ≤ S100000x5.size a
  hwx3_4 : ∀ i : grid3.Coords, EltTy.bits .f32 = 32 ∨ (Rect.block (s := S100000x5) S5000x5.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x5.size a ≤ S100000x5.size a
  hwx4_0 : ∀ i : grid4.Coords, EltTy.bits .f32 = 32 ∨ (Rect.block (s := S100000x5) S5000x5.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S5x7.size a ≤ S5x7.size a
  hwx4_1 : ∀ i : grid4.Coords, EltTy.bits .f32 = 32 ∨ (Rect.block (s := S5x7) S5x7.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x7.size a ≤ S1x7.size a
  hwx4_2 : ∀ i : grid4.Coords, EltTy.bits .f32 = 32 ∨ (Rect.block (s := S1x7) S1x7.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x7.size a ≤ S100000x7.size a
  hwx4_3 : ∀ i : grid4.Coords, EltTy.bits .f32 = 32 ∨ (Rect.block (s := S100000x7) S5000x7.size (cc4_transform_3 i) (hinb4_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x256_S256x5_S5000x5_1_0_0_1_n_n : DotDims S5000x256 S256x5 S5000x5 where
  lhsContracting := [1]
  rhsContracting := [0]
  lhsNonContracting := [0]
  rhsNonContracting := [1]
  lhsBatch := []
  rhsBatch := []
  wf := dot_S5000x256_S256x5_S5000x5_1_0_0_1_n_n_wf
def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def scatter_S100000x5_S3200000x1_S3200000x5_1_0_0_1 : ScatterDims S100000x5 S3200000x1 S3200000x5 where
  updateWindowDims := [1]
  insertedWindowDims := [0]
  scatterDimsToOperandDims := [0]
  indexVectorDim := 1
  wf := scatter_S100000x5_S3200000x1_S3200000x5_1_0_0_1_wf
def dot_S5000x5_S5x5_S5000x5_1_0_0_1_n_n : DotDims S5000x5 S5x5 S5000x5 where
  lhsContracting := [1]
  rhsContracting := [0]
  lhsNonContracting := [0]
  rhsNonContracting := [1]
  lhsBatch := []
  rhsBatch := []
  wf := dot_S5000x5_S5x5_S5000x5_1_0_0_1_n_n_wf
def dot_S5000x5_S5x7_S5000x7_1_0_0_1_n_n : DotDims S5000x5 S5x7 S5000x7 where
  lhsContracting := [1]
  rhsContracting := [0]
  lhsNonContracting := [0]
  rhsNonContracting := [1]
  lhsBatch := []
  rhsBatch := []
  wf := dot_S5000x5_S5x7_S5000x7_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x5.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x5.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S5x5.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x5.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x5.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x5.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x5.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x5.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S5000x5.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S5x7.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1x7.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S5000x7.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x5 : Shape := ⟨2, ![256, 5]⟩
abbrev S5 : Shape := ⟨1, ![5]⟩
abbrev S5x5 : Shape := ⟨2, ![5, 5]⟩
abbrev S5x7 : Shape := ⟨2, ![5, 7]⟩
abbrev S7 : Shape := ⟨1, ![7]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x5 : Shape := ⟨2, ![100000, 5]⟩
abbrev S3200000x5 : Shape := ⟨2, ![3200000, 5]⟩
abbrev S100000x1 : Shape := ⟨2, ![100000, 1]⟩
abbrev S1x5 : Shape := ⟨2, ![1, 5]⟩
abbrev S100000x7 : Shape := ⟨2, ![100000, 7]⟩
abbrev S1x7 : Shape := ⟨2, ![1, 7]⟩

abbrev nBuf : Space → Nat
  | .hbm => 120
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x5, .f32⟩
  | .hbm, ⟨3, _⟩ => ⟨S5, .f32⟩
  | .hbm, ⟨4, _⟩ => ⟨S5x5, .f32⟩
  | .hbm, ⟨5, _⟩ => ⟨S5, .f32⟩
  | .hbm, ⟨6, _⟩ => ⟨S5x7, .f32⟩
  | .hbm, ⟨7, _⟩ => ⟨S7, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x5, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S3200000, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000, .f32⟩
  | .hbm, ⟨41, _⟩ => ⟨S3200000, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x5, .f32⟩
  | .hbm, ⟨51, _⟩ => ⟨S3200000x1, .f32⟩
  | .hbm, ⟨52, _⟩ => ⟨S3200000x5, .f32⟩
  | .hbm, ⟨53, _⟩ => ⟨S3200000x5, .f32⟩
  | .hbm, ⟨54, _⟩ => ⟨S_, .f32⟩
  | .hbm, ⟨55, _⟩ => ⟨S100000x5, .f32⟩
  | .hbm, ⟨56, _⟩ => ⟨S3200000x1, .i32⟩
  | .hbm, ⟨57, _⟩ => ⟨S100000x5, .f32⟩
  | .hbm, ⟨58, _⟩ => ⟨S100000, .f32⟩
  | .hbm, ⟨59, _⟩ => ⟨S100000x1, .f32⟩
  | .hbm, ⟨60, _⟩ => ⟨S100000x5, .f32⟩
  | .hbm, ⟨61, _⟩ => ⟨S100000x5, .f32⟩
  | .hbm, ⟨62, _⟩ => ⟨S100000x5, .f32⟩
  | .hbm, ⟨63, _⟩ => ⟨S1x5, .f32⟩
  | .hbm, ⟨64, _⟩ => ⟨S100000x5, .f32⟩
  | .hbm, ⟨65, _⟩ => ⟨S100000x5, .f32⟩
  | .hbm, ⟨66, _⟩ => ⟨S_, .f32⟩
  | .hbm, ⟨67, _⟩ => ⟨S100000x5, .f32⟩
  | .hbm, ⟨68, _⟩ => ⟨S100000x5, .f32⟩
  | .hbm, ⟨69, _⟩ => ⟨S100000x5, .f32⟩
  | .hbm, ⟨70, _⟩ => ⟨S_, .i32⟩
  | .hbm, ⟨71, _⟩ => ⟨S3200000, .i32⟩
  | .hbm, ⟨72, _⟩ => ⟨S3200000, .i1⟩
  | .hbm, ⟨73, _⟩ => ⟨S_, .i32⟩
  | .hbm, ⟨74, _⟩ => ⟨S3200000, .i32⟩
  | .hbm, ⟨75, _⟩ => ⟨S3200000, .i32⟩
  | .hbm, ⟨76, _⟩ => ⟨S3200000, .i32⟩
  | .hbm, ⟨77, _⟩ => ⟨S3200000x1, .i32⟩
  | .hbm, ⟨78, _⟩ => ⟨S3200000, .f32⟩
  | .hbm, ⟨79, _⟩ => ⟨S_, .i32⟩
  | .hbm, ⟨80, _⟩ => ⟨S3200000, .i32⟩
  | .hbm, ⟨81, _⟩ => ⟨S3200000, .i1⟩
  | .hbm, ⟨82, _⟩ => ⟨S_, .i32⟩
  | .hbm, ⟨83, _⟩ => ⟨S3200000, .i32⟩
  | .hbm, ⟨84, _⟩ => ⟨S3200000, .i32⟩
  | .hbm, ⟨85, _⟩ => ⟨S3200000, .i32⟩
  | .hbm, ⟨86, _⟩ => ⟨S3200000x1, .i32⟩
  | .hbm, ⟨87, _⟩ => ⟨S3200000, .f32⟩
  | .hbm, ⟨88, _⟩ => ⟨S3200000, .f32⟩
  | .hbm, ⟨89, _⟩ => ⟨S_, .i32⟩
  | .hbm, ⟨90, _⟩ => ⟨S3200000, .i32⟩
  | .hbm, ⟨91, _⟩ => ⟨S3200000, .i1⟩
  | .hbm, ⟨92, _⟩ => ⟨S_, .i32⟩
  | .hbm, ⟨93, _⟩ => ⟨S3200000, .i32⟩
  | .hbm, ⟨94, _⟩ => ⟨S3200000, .i32⟩
  | .hbm, ⟨95, _⟩ => ⟨S3200000, .i32⟩
  | .hbm, ⟨96, _⟩ => ⟨S3200000x1, .i32⟩
  | .hbm, ⟨97, _⟩ => ⟨S3200000x5, .f32⟩
  | .hbm, ⟨98, _⟩ => ⟨S3200000x1, .f32⟩
  | .hbm, ⟨99, _⟩ => ⟨S3200000x5, .f32⟩
  | .hbm, ⟨100, _⟩ => ⟨S3200000x5, .f32⟩
  | .hbm, ⟨101, _⟩ => ⟨S_, .f32⟩
  | .hbm, ⟨102, _⟩ => ⟨S100000x5, .f32⟩
  | .hbm, ⟨103, _⟩ => ⟨S3200000x1, .i32⟩
  | .hbm, ⟨104, _⟩ => ⟨S100000x5, .f32⟩
  | .hbm, ⟨105, _⟩ => ⟨S100000, .f32⟩
  | .hbm, ⟨106, _⟩ => ⟨S100000x1, .f32⟩
  | .hbm, ⟨107, _⟩ => ⟨S100000x5, .f32⟩
  | .hbm, ⟨108, _⟩ => ⟨S100000x5, .f32⟩
  | .hbm, ⟨109, _⟩ => ⟨S100000x5, .f32⟩
  | .hbm, ⟨110, _⟩ => ⟨S1x5, .f32⟩
  | .hbm, ⟨111, _⟩ => ⟨S100000x5, .f32⟩
  | .hbm, ⟨112, _⟩ => ⟨S100000x5, .f32⟩
  | .hbm, ⟨113, _⟩ => ⟨S_, .f32⟩
  | .hbm, ⟨114, _⟩ => ⟨S100000x5, .f32⟩
  | .hbm, ⟨115, _⟩ => ⟨S100000x5, .f32⟩
  | .hbm, ⟨116, _⟩ => ⟨S100000x7, .f32⟩
  | .hbm, ⟨117, _⟩ => ⟨S1x7, .f32⟩
  | .hbm, ⟨118, _⟩ => ⟨S100000x7, .f32⟩
  | .hbm, ⟨119, _⟩ => ⟨S100000x7, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x5_0_1 : S3200000x1.BroadcastsInDim S3200000x5 (![0, 1] : Fin 2 → Fin S3200000x5.rank)
  bcast_S_S100000x5 : S_.BroadcastsInDim S100000x5 (![] : Fin 0 → Fin S100000x5.rank)
  bcast_S100000_S100000x1_0 : S100000.BroadcastsInDim S100000x1 (![0] : Fin 1 → Fin S100000x1.rank)
  bcast_S100000x1_S100000x5_0_1 : S100000x1.BroadcastsInDim S100000x5 (![0, 1] : Fin 2 → Fin S100000x5.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3200000x1_S3200000_n_0_0_1_wf : ScatterDims.WF S100000 S3200000x1 S3200000 [] [0] [0] 1
  dot_S100000x256_S256x5_S100000x5_1_0_0_1_n_n_wf : DotDims.WF S100000x256 S256x5 S100000x5 [1] [0] [0] [1] [] []
  gather_S100000_S3200000x1_S3200000_n_0_n_n_0_1_1_wf : GatherDims.WF S100000 S3200000x1 S3200000 [] [0] [] [0] [] 1 ![1]
  gather_S100000x5_S3200000x1_S3200000x5_1_0_n_n_0_1_15_wf : GatherDims.WF S100000x5 S3200000x1 S3200000x5 [1] [0] [] [0] [] 1 ![1, 5]
  scatter_S100000x5_S3200000x1_S3200000x5_1_0_0_1_wf : ScatterDims.WF S100000x5 S3200000x1 S3200000x5 [1] [0] [0] 1
  dot_S100000x5_S5x5_S100000x5_1_0_0_1_n_n_wf : DotDims.WF S100000x5 S5x5 S100000x5 [1] [0] [0] [1] [] []
  dot_S100000x5_S5x7_S100000x7_1_0_0_1_n_n_wf : DotDims.WF S100000x5 S5x7 S100000x7 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x256_S256x5_S100000x5_1_0_0_1_n_n : DotDims S100000x256 S256x5 S100000x5 where
  lhsContracting := [1]
  rhsContracting := [0]
  lhsNonContracting := [0]
  rhsNonContracting := [1]
  lhsBatch := []
  rhsBatch := []
  wf := dot_S100000x256_S256x5_S100000x5_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def scatter_S100000x5_S3200000x1_S3200000x5_1_0_0_1 : ScatterDims S100000x5 S3200000x1 S3200000x5 where
  updateWindowDims := [1]
  insertedWindowDims := [0]
  scatterDimsToOperandDims := [0]
  indexVectorDim := 1
  wf := scatter_S100000x5_S3200000x1_S3200000x5_1_0_0_1_wf
def dot_S100000x5_S5x5_S100000x5_1_0_0_1_n_n : DotDims S100000x5 S5x5 S100000x5 where
  lhsContracting := [1]
  rhsContracting := [0]
  lhsNonContracting := [0]
  rhsNonContracting := [1]
  lhsBatch := []
  rhsBatch := []
  wf := dot_S100000x5_S5x5_S100000x5_1_0_0_1_n_n_wf
def dot_S100000x5_S5x7_S100000x7_1_0_0_1_n_n : DotDims S100000x5 S5x7 S100000x7 where
  lhsContracting := [1]
  rhsContracting := [0]
  lhsNonContracting := [0]
  rhsNonContracting := [1]
  lhsBatch := []
  rhsBatch := []
  wf := dot_S100000x5_S5x7_S100000x7_1_0_0_1_n_n_wf

class Facts : Prop extends Facts₀ where

variable [Facts]
-- ==== Proof.KernelRun.lean ====
/-
  The idealized kernel's run with its result named: every weakly fair execution of the five-region program ends
  with the result array at the contents the last segment boundary leaves for it (the fold of the host stretches
  and of each region's write-backs from the launch memory), and with the eight argument arrays as launched.
-/
import proofs.«166702_j61160334295401_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the five regions among their host stretches, with the result array read off the last boundary:
    the result buffer is an unscoped buffer of the last thread state, so the final memory holds the last
    boundary's contents there; each argument walks back through the fold to the launch memory. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunValue

end
-- ==== Proof.Chain.lean ====
/-
  The host side of the idealized kernel's program, read as functions of the edge array and of the projected features.

  From the edge array e (row 0 the source node of each edge, row 1 its destination) the program computes, before its
  first region: the inverse square root `dis` of each node's in-degree plus one (a scatter-add of ones over the
  destinations), the self weight `selfw` = dis · dis as a column, and each edge's weight `norm` = dis[src] · dis[dst]
  (node indices read with wrap-around for negative values). Between regions it gathers the projected features h at each
  edge's source, scales them by the edge's weight and scatter-adds them over the destinations: `agg h e`. The two
  bias vectors and the last one are re-laid as rows.

  Each lemma here reads ONE buffer after ONE stretch of host operations as such a function of the buffers the stretch
  started from, or says that a buffer the stretch does not write keeps its contents.
-/
import proofs.«166702_j61160334295401_1_alg».proof.Proof.Gen.KernelIdeal.Frame
import Idealize.ShloMosaic.Lib.StableHlo.Run

set_option maxRecDepth 16384

noncomputable section

namespace Cert.KernelIdeal.Chain

open Idealize.ShloMosaic Idealize.ShloMosaic.TcCoe Idealize.ShloMosaic.Tactic Idealize.SL.Sem
open Idealize.ShloMosaic.StableHlo
open Cert.KernelIdeal Cert.KernelIdeal.Gen

variable {F : FTy → Type} [FloatOps F]

/-! ## The host functions -/

/-- Row 0 of the edge array: each edge's source node. -/
def src (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

/-- Row 1 of the edge array: each edge's destination node. -/
def dst (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- Node indices as a gather takes them: a negative index counts from the end (100000 is added to it), and the
    vector is re-laid as a one-column index array. -/
def wrap (v : (⟨S3200000, .i32⟩ : BufTy).Contents (Elt F)) : (⟨S3200000x1, .i32⟩ : BufTy).Contents (Elt F) :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- (in-degree + 1)^(-1/2) of each node: ones scatter-added over the destinations, plus one, inverse square root. -/
def dis (e : (⟨S2x3200000, .i32⟩ : BufTy).Contents (Elt F)) : (⟨S100000, .f32⟩ : BufTy).Contents (Elt F) :=
  Host.rsqrt (addf
    (Host.scatterAdd scatter_S100000_S3200000x1_S3200000_n_0_0_1
      (broadcastInDim S100000 ![] bcast_S_S100000 (constant S_ .f32 0x00000000#32))
      (broadcastInDim S3200000x1 ![0] bcast_S3200000_S3200000x1_0 (dst e))
      (broadcastInDim S3200000 ![] bcast_S_S3200000 (constant S_ .f32 0x3F800000#32)))
    (broadcastInDim S100000 ![] bcast_S_S100000 (constant S_ .f32 0x3F800000#32)))

/-- The self weight dis · dis of each node, as a column. -/
def selfw (e : (⟨S2x3200000, .i32⟩ : BufTy).Contents (Elt F)) : (⟨S100000x1, .f32⟩ : BufTy).Contents (Elt F) :=
  shapeCast _ (mulf (dis e) (dis e)) shapeCasts_S100000_S100000x1

/-- Each edge's weight dis[src] · dis[dst]. -/
def norm (e : (⟨S2x3200000, .i32⟩ : BufTy).Contents (Elt F)) : (⟨S3200000, .f32⟩ : BufTy).Contents (Elt F) :=
  mulf (Host.gather gather_S100000_S3200000x1_S3200000_n_0_n_n_0_1_1 (dis e) (wrap (src e)))
    (Host.gather gather_S100000_S3200000x1_S3200000_n_0_n_n_0_1_1 (dis e) (wrap (dst e)))

/-- The neighbours' sum from sources `s`, destinations `d` and edge weights `n`: the features gathered at the
    sources, each row scaled by its edge's weight, scatter-added over the destinations into zeros. -/
def aggOf (h : (⟨S100000x5, .f32⟩ : BufTy).Contents (Elt F)) (s d : (⟨S3200000, .i32⟩ : BufTy).Contents (Elt F))
    (n : (⟨S3200000, .f32⟩ : BufTy).Contents (Elt F)) : (⟨S100000x5, .f32⟩ : BufTy).Contents (Elt F) :=
  Host.scatterAdd scatter_S100000x5_S3200000x1_S3200000x5_1_0_0_1
    (broadcastInDim S100000x5 ![] bcast_S_S100000x5 (constant S_ .f32 0x00000000#32))
    (broadcastInDim S3200000x1 ![0] bcast_S3200000_S3200000x1_0 d)
    (mulf (Host.gather gather_S100000x5_S3200000x1_S3200000x5_1_0_n_n_0_1_15 h (wrap s))
      (broadcastInDim S3200000x5 ![0, 1] bcast_S3200000x1_S3200000x5_0_1 (broadcastInDim S3200000x1 ![0] bcast_S3200000_S3200000x1_0 n)))

/-- The neighbours' sum of the features `h` over the edge array `e`. -/
def agg (h : (⟨S100000x5, .f32⟩ : BufTy).Contents (Elt F)) (e : (⟨S2x3200000, .i32⟩ : BufTy).Contents (Elt F)) :
    (⟨S100000x5, .f32⟩ : BufTy).Contents (Elt F) :=
  aggOf h (src e) (dst e) (norm e)

/-- A length-5 vector re-laid as a row. -/
def row5 (b : (⟨S5, .f32⟩ : BufTy).Contents (Elt F)) : (⟨S1x5, .f32⟩ : BufTy).Contents (Elt F) := shapeCast _ b shapeCasts_S5_S1x5

/-- A length-7 vector re-laid as a row. -/
def row7 (b : (⟨S7, .f32⟩ : BufTy).Contents (Elt F)) : (⟨S1x7, .f32⟩ : BufTy).Contents (Elt F) := shapeCast _ b shapeCasts_S7_S1x7

/-! ## What each stretch leaves alone -/

/-- The result references of the first stretch. -/
abbrev written0 : List (Ref sig .tc) := [main_v0, main_v1, main_v2, main_v3, main_cst, main_v4, main_cst_0, main_v5, main_v6, main_v7,
  main_cst_1, main_v8, main_v9, main_v10, main_v11, main_v12, main_c, main_v13, main_v14, main_c_2, main_v15, main_v16, main_v17,
  main_v18, main_v19, main_c_3, main_v20, main_v21, main_c_4, main_v22, main_v23, main_v24, main_v25, main_v26, main_v27]
/-- The result references of the stretch between regions 0 and 1. -/
abbrev written1 : List (Ref sig .tc) := [main_c_5, main_v29, main_v30, main_c_6, main_v31, main_v32, main_v33, main_v34, main_v35,
  main_v36, main_v37, main_v38, main_cst_7, main_v39, main_v40, main_v41, main_v42]
/-- The result references of the stretch between regions 2 and 3. -/
abbrev written3 : List (Ref sig .tc) := [main_c_8, main_v45, main_v46, main_c_9, main_v47, main_v48, main_v49, main_v50, main_v51,
  main_v52, main_v53, main_v54, main_cst_10, main_v55, main_v56, main_v57, main_v58]
/-- The result reference of the stretch between regions 3 and 4. -/
abbrev written4 : List (Ref sig .tc) := [main_v60]

/-- A buffer whose reference is none of the stretch's result references keeps its contents through `hostOps0`. -/
theorem keep_hostOps0 (Wv : Valuation τ sig (Elt F)) (r : Ref sig .tc) (hr : r ∉ written0) :
    StableHlo.after hostOps0 Wv (Proc.devRef .tc r) = Wv (Proc.devRef .tc r) :=
  StableHlo.after_of_writes_sub (W := written0) hostOps0 Wv (by
    simp only [hostOps0, List.Forall, StableHlo.nullary_writes, StableHlo.unary_writes, StableHlo.binary_writes, StableHlo.ternary_writes,
      StableHlo.reshape_writes]
    decide) hr

/-- A buffer whose reference is none of the stretch's result references keeps its contents through `hostOps1`. -/
theorem keep_hostOps1 (Wv : Valuation τ sig (Elt F)) (r : Ref sig .tc) (hr : r ∉ written1) :
    StableHlo.after hostOps1 Wv (Proc.devRef .tc r) = Wv (Proc.devRef .tc r) :=
  StableHlo.after_of_writes_sub (W := written1) hostOps1 Wv (by
    simp only [hostOps1, List.Forall, StableHlo.nullary_writes, StableHlo.unary_writes, StableHlo.binary_writes, StableHlo.ternary_writes,
      StableHlo.reshape_writes]
    decide) hr

/-- A buffer whose reference is none of the stretch's result references keeps its contents through `hostOps3`. -/
theorem keep_hostOps3 (Wv : Valuation τ sig (Elt F)) (r : Ref sig .tc) (hr : r ∉ written3) :
    StableHlo.after hostOps3 Wv (Proc.devRef .tc r) = Wv (Proc.devRef .tc r) :=
  StableHlo.after_of_writes_sub (W := written3) hostOps3 Wv (by
    simp only [hostOps3, List.Forall, StableHlo.nullary_writes, StableHlo.unary_writes, StableHlo.binary_writes, StableHlo.ternary_writes,
      StableHlo.reshape_writes]
    decide) hr

/-- A buffer whose reference is none of the stretch's result references keeps its contents through `hostOps4`. -/
theorem keep_hostOps4 (Wv : Valuation τ sig (Elt F)) (r : Ref sig .tc) (hr : r ∉ written4) :
    StableHlo.after hostOps4 Wv (Proc.devRef .tc r) = Wv (Proc.devRef .tc r) :=
  StableHlo.after_of_writes_sub (W := written4) hostOps4 Wv (by
    simp only [hostOps4, List.Forall, StableHlo.nullary_writes, StableHlo.unary_writes, StableHlo.binary_writes, StableHlo.ternary_writes,
      StableHlo.reshape_writes]
    decide) hr

/-! ## What each stretch computes -/

set_option maxHeartbeats 4000000 in
theorem stretch0_v1 (Wv : Valuation τ sig (Elt F)) : StableHlo.after hostOps0 Wv (Proc.devRef .tc main_v1) = src (Wv (Proc.devRef .tc main_arg1)) := by
  after_results_simp <;> rfl
set_option maxHeartbeats 4000000 in
theorem stretch0_v3 (Wv : Valuation τ sig (Elt F)) : StableHlo.after hostOps0 Wv (Proc.devRef .tc main_v3) = dst (Wv (Proc.devRef .tc main_arg1)) := by
  after_results_simp <;> rfl
set_option maxHeartbeats 4000000 in
theorem stretch0_v12 (Wv : Valuation τ sig (Elt F)) : StableHlo.after hostOps0 Wv (Proc.devRef .tc main_v12) = selfw (Wv (Proc.devRef .tc main_arg1)) := by
  after_results_simp <;> rfl
set_option maxHeartbeats 4000000 in
theorem stretch0_v27 (Wv : Valuation τ sig (Elt F)) : StableHlo.after hostOps0 Wv (Proc.devRef .tc main_v27) = norm (Wv (Proc.devRef .tc main_arg1)) := by
  after_results_simp <;> rfl

set_option maxHeartbeats 4000000 in
theorem stretch1_v41 (Wv : Valuation τ sig (Elt F)) : StableHlo.after hostOps1 Wv (Proc.devRef .tc main_v41)
    = aggOf (Wv (Proc.devRef .tc main_v28)) (Wv (Proc.devRef .tc main_v1)) (Wv (Proc.devRef .tc main_v3)) (Wv (Proc.devRef .tc main_v27)) := by
  after_results_simp <;> rfl
set_option maxHeartbeats 4000000 in
theorem stretch1_v42 (Wv : Valuation τ sig (Elt F)) : StableHlo.after hostOps1 Wv (Proc.devRef .tc main_v42) = row5 (Wv (Proc.devRef .tc main_arg3)) := by
  after_results_simp <;> rfl

set_option maxHeartbeats 4000000 in
theorem stretch3_v57 (Wv : Valuation τ sig (Elt F)) : StableHlo.after hostOps3 Wv (Proc.devRef .tc main_v57)
    = aggOf (Wv (Proc.devRef .tc main_v44)) (Wv (Proc.devRef .tc main_v1)) (Wv (Proc.devRef .tc main_v3)) (Wv (Proc.devRef .tc main_v27)) := by
  after_results_simp <;> rfl
set_option maxHeartbeats 4000000 in
theorem stretch3_v58 (Wv : Valuation τ sig (Elt F)) : StableHlo.after hostOps3 Wv (Proc.devRef .tc main_v58) = row5 (Wv (Proc.devRef .tc main_arg5)) := by
  after_results_simp <;> rfl

set_option maxHeartbeats 4000000 in
theorem stretch4_v60 (Wv : Valuation τ sig (Elt F)) : StableHlo.after hostOps4 Wv (Proc.devRef .tc main_v60) = row7 (Wv (Proc.devRef .tc main_arg7)) := by
  after_results_simp <;> rfl

end Cert.KernelIdeal.Chain

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.Payloads.lean ====
/-
  What each of the five kernel bodies stores, read at an entry (r, q) of its output block, at the ideal instance:
  the two matrix-product bodies store the sum over the contracted axis of the products of the loaded block's row and
  the weights' column (a change of float format is the identity there, and the accumulator is the zero word); the
  two layer tails store max(agg + h · s(r, 0) + b(0, q), 0); the last body stores the product's sum plus the bias row.
-/
import proofs.«166702_j61160334295401_1_alg».proof.Proof.Gen.KernelIdeal.Skeleton
import proofs.«166702_j61160334295401_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.TcCoe Idealize.ShloMosaic.ValueIdx
open Cert.KernelIdeal Cert.KernelIdeal.Gen

/-! ### k0_pay1: a 5000×256 block times the 256×5 weights -/

theorem d0_l0 (i : S5000x5.Idx) (q : dot_S5000x256_S256x5_S5000x5_1_0_0_1_n_n.contr.Idx) : (dot_S5000x256_S256x5_S5000x5_1_0_0_1_n_n.lhsIdx i q 0).val = (i 0).val := by
  unfold DotDims.lhsIdx
  rw [dif_neg (show ¬(0 : Fin S5000x256.rank) ∈ dot_S5000x256_S256x5_S5000x5_1_0_0_1_n_n.lhsBatch by decide), dif_pos (show (0 : Fin S5000x256.rank) ∈ dot_S5000x256_S256x5_S5000x5_1_0_0_1_n_n.lhsNonContracting by decide)]
  rfl
theorem d0_l1 (i : S5000x5.Idx) (q : dot_S5000x256_S256x5_S5000x5_1_0_0_1_n_n.contr.Idx) : (dot_S5000x256_S256x5_S5000x5_1_0_0_1_n_n.lhsIdx i q 1).val = (q ⟨0, by decide⟩).val :=
  dot_S5000x256_S256x5_S5000x5_1_0_0_1_n_n.lhsIdx_val_of_single rfl i q
theorem d0_r0 (i : S5000x5.Idx) (q : dot_S5000x256_S256x5_S5000x5_1_0_0_1_n_n.contr.Idx) : (dot_S5000x256_S256x5_S5000x5_1_0_0_1_n_n.rhsIdx i q 0).val = (q ⟨0, by decide⟩).val :=
  dot_S5000x256_S256x5_S5000x5_1_0_0_1_n_n.rhsIdx_val_of_single rfl i q
theorem d0_r1 (i : S5000x5.Idx) (q : dot_S5000x256_S256x5_S5000x5_1_0_0_1_n_n.contr.Idx) : (dot_S5000x256_S256x5_S5000x5_1_0_0_1_n_n.rhsIdx i q 1).val = (i 1).val := by
  unfold DotDims.rhsIdx
  rw [dif_neg (show ¬(1 : Fin S256x5.rank) ∈ dot_S5000x256_S256x5_S5000x5_1_0_0_1_n_n.rhsBatch by decide), dif_pos (show (1 : Fin S256x5.rank) ∈ dot_S5000x256_S256x5_S5000x5_1_0_0_1_n_n.rhsNonContracting by decide)]
  rfl

/-- The block product into the zero accumulator, read at (r, q): the sum over the contracted axis. -/
theorem d0_matmul (a : FVec Ideal S5000x256 .bf16) (b : FVec Ideal S256x5 .bf16) (r : Fin 5000) (q : Fin 5) :
    matmul dot_S5000x256_S256x5_S5000x5_1_0_0_1_n_n none a b (constant S5000x5 .f32 0x00000000#32) (ix2 r q) = ∑ k : Fin 256, a (ix2 r k) * b (ix2 k q) := by
  refine (Ideal.matmul_constant_zero_apply dot_S5000x256_S256x5_S5000x5_1_0_0_1_n_n none a b (ix2 r q)).trans ?_
  rw [← Equiv.sum_comp (contrEquiv1 dot_S5000x256_S256x5_S5000x5_1_0_0_1_n_n 256 rfl rfl).symm]
  refine Finset.sum_congr rfl fun k _ => ?_
  have hk := contrEquiv1_symm_val dot_S5000x256_S256x5_S5000x5_1_0_0_1_n_n 256 rfl rfl k
  have el : dot_S5000x256_S256x5_S5000x5_1_0_0_1_n_n.lhsIdx (ix2 r q) ((contrEquiv1 dot_S5000x256_S256x5_S5000x5_1_0_0_1_n_n 256 rfl rfl).symm k) = ix2 r k := funext fun ax => Fin.ext (by
    match ax with
    | ⟨0, _⟩ => exact d0_l0 _ _
    | ⟨1, _⟩ => exact (d0_l1 _ _).trans hk)
  have er : dot_S5000x256_S256x5_S5000x5_1_0_0_1_n_n.rhsIdx (ix2 r q) ((contrEquiv1 dot_S5000x256_S256x5_S5000x5_1_0_0_1_n_n 256 rfl rfl).symm k) = ix2 k q := funext fun ax => Fin.ext (by
    match ax with
    | ⟨0, _⟩ => exact (d0_r0 _ _).trans hk
    | ⟨1, _⟩ => exact d0_r1 _ _)
  rw [el, er]

/-! ### k2_pay1: a 5000×5 block times the 5×5 weights -/

theorem d2_l0 (i : S5000x5.Idx) (q : dot_S5000x5_S5x5_S5000x5_1_0_0_1_n_n.contr.Idx) : (dot_S5000x5_S5x5_S5000x5_1_0_0_1_n_n.lhsIdx i q 0).val = (i 0).val := by
  unfold DotDims.lhsIdx
  rw [dif_neg (show ¬(0 : Fin S5000x5.rank) ∈ dot_S5000x5_S5x5_S5000x5_1_0_0_1_n_n.lhsBatch by decide), dif_pos (show (0 : Fin S5000x5.rank) ∈ dot_S5000x5_S5x5_S5000x5_1_0_0_1_n_n.lhsNonContracting by decide)]
  rfl
theorem d2_l1 (i : S5000x5.Idx) (q : dot_S5000x5_S5x5_S5000x5_1_0_0_1_n_n.contr.Idx) : (dot_S5000x5_S5x5_S5000x5_1_0_0_1_n_n.lhsIdx i q 1).val = (q ⟨0, by decide⟩).val :=
  dot_S5000x5_S5x5_S5000x5_1_0_0_1_n_n.lhsIdx_val_of_single rfl i q
theorem d2_r0 (i : S5000x5.Idx) (q : dot_S5000x5_S5x5_S5000x5_1_0_0_1_n_n.contr.Idx) : (dot_S5000x5_S5x5_S5000x5_1_0_0_1_n_n.rhsIdx i q 0).val = (q ⟨0, by decide⟩).val :=
  dot_S5000x5_S5x5_S5000x5_1_0_0_1_n_n.rhsIdx_val_of_single rfl i q
theorem d2_r1 (i : S5000x5.Idx) (q : dot_S5000x5_S5x5_S5000x5_1_0_0_1_n_n.contr.Idx) : (dot_S5000x5_S5x5_S5000x5_1_0_0_1_n_n.rhsIdx i q 1).val = (i 1).val := by
  unfold DotDims.rhsIdx
  rw [dif_neg (show ¬(1 : Fin S5x5.rank) ∈ dot_S5000x5_S5x5_S5000x5_1_0_0_1_n_n.rhsBatch by decide), dif_pos (show (1 : Fin S5x5.rank) ∈ dot_S5000x5_S5x5_S5000x5_1_0_0_1_n_n.rhsNonContracting by decide)]
  rfl

/-- The block product into the zero accumulator, read at (r, q): the sum over the contracted axis. -/
theorem d2_matmul (a : FVec Ideal S5000x5 .bf16) (b : FVec Ideal S5x5 .bf16) (r : Fin 5000) (q : Fin 5) :
    matmul dot_S5000x5_S5x5_S5000x5_1_0_0_1_n_n none a b (constant S5000x5 .f32 0x00000000#32) (ix2 r q) = ∑ k : Fin 5, a (ix2 r k) * b (ix2 k q) := by
  refine (Ideal.matmul_constant_zero_apply dot_S5000x5_S5x5_S5000x5_1_0_0_1_n_n none a b (ix2 r q)).trans ?_
  rw [← Equiv.sum_comp (contrEquiv1 dot_S5000x5_S5x5_S5000x5_1_0_0_1_n_n 5 rfl rfl).symm]
  refine Finset.sum_congr rfl fun k _ => ?_
  have hk := contrEquiv1_symm_val dot_S5000x5_S5x5_S5000x5_1_0_0_1_n_n 5 rfl rfl k
  have el : dot_S5000x5_S5x5_S5000x5_1_0_0_1_n_n.lhsIdx (ix2 r q) ((contrEquiv1 dot_S5000x5_S5x5_S5000x5_1_0_0_1_n_n 5 rfl rfl).symm k) = ix2 r k := funext fun ax => Fin.ext (by
    match ax with
    | ⟨0, _⟩ => exact d2_l0 _ _
    | ⟨1, _⟩ => exact (d2_l1 _ _).trans hk)
  have er : dot_S5000x5_S5x5_S5000x5_1_0_0_1_n_n.rhsIdx (ix2 r q) ((contrEquiv1 dot_S5000x5_S5x5_S5000x5_1_0_0_1_n_n 5 rfl rfl).symm k) = ix2 k q := funext fun ax => Fin.ext (by
    match ax with
    | ⟨0, _⟩ => exact (d2_r0 _ _).trans hk
    | ⟨1, _⟩ => exact d2_r1 _ _)
  rw [el, er]

/-! ### k4_pay1: a 5000×5 block times the 5×7 weights -/

theorem d4_l0 (i : S5000x7.Idx) (q : dot_S5000x5_S5x7_S5000x7_1_0_0_1_n_n.contr.Idx) : (dot_S5000x5_S5x7_S5000x7_1_0_0_1_n_n.lhsIdx i q 0).val = (i 0).val := by
  unfold DotDims.lhsIdx
  rw [dif_neg (show ¬(0 : Fin S5000x5.rank) ∈ dot_S5000x5_S5x7_S5000x7_1_0_0_1_n_n.lhsBatch by decide), dif_pos (show (0 : Fin S5000x5.rank) ∈ dot_S5000x5_S5x7_S5000x7_1_0_0_1_n_n.lhsNonContracting by decide)]
  rfl
theorem d4_l1 (i : S5000x7.Idx) (q : dot_S5000x5_S5x7_S5000x7_1_0_0_1_n_n.contr.Idx) : (dot_S5000x5_S5x7_S5000x7_1_0_0_1_n_n.lhsIdx i q 1).val = (q ⟨0, by decide⟩).val :=
  dot_S5000x5_S5x7_S5000x7_1_0_0_1_n_n.lhsIdx_val_of_single rfl i q
theorem d4_r0 (i : S5000x7.Idx) (q : dot_S5000x5_S5x7_S5000x7_1_0_0_1_n_n.contr.Idx) : (dot_S5000x5_S5x7_S5000x7_1_0_0_1_n_n.rhsIdx i q 0).val = (q ⟨0, by decide⟩).val :=
  dot_S5000x5_S5x7_S5000x7_1_0_0_1_n_n.rhsIdx_val_of_single rfl i q
theorem d4_r1 (i : S5000x7.Idx) (q : dot_S5000x5_S5x7_S5000x7_1_0_0_1_n_n.contr.Idx) : (dot_S5000x5_S5x7_S5000x7_1_0_0_1_n_n.rhsIdx i q 1).val = (i 1).val := by
  unfold DotDims.rhsIdx
  rw [dif_neg (show ¬(1 : Fin S5x7.rank) ∈ dot_S5000x5_S5x7_S5000x7_1_0_0_1_n_n.rhsBatch by decide), dif_pos (show (1 : Fin S5x7.rank) ∈ dot_S5000x5_S5x7_S5000x7_1_0_0_1_n_n.rhsNonContracting by decide)]
  rfl

/-- The block product into the zero accumulator, read at (r, q): the sum over the contracted axis. -/
theorem d4_matmul (a : FVec Ideal S5000x5 .bf16) (b : FVec Ideal S5x7 .bf16) (r : Fin 5000) (q : Fin 7) :
    matmul dot_S5000x5_S5x7_S5000x7_1_0_0_1_n_n none a b (constant S5000x7 .f32 0x00000000#32) (ix2 r q) = ∑ k : Fin 5, a (ix2 r k) * b (ix2 k q) := by
  refine (Ideal.matmul_constant_zero_apply dot_S5000x5_S5x7_S5000x7_1_0_0_1_n_n none a b (ix2 r q)).trans ?_
  rw [← Equiv.sum_comp (contrEquiv1 dot_S5000x5_S5x7_S5000x7_1_0_0_1_n_n 5 rfl rfl).symm]
  refine Finset.sum_congr rfl fun k _ => ?_
  have hk := contrEquiv1_symm_val dot_S5000x5_S5x7_S5000x7_1_0_0_1_n_n 5 rfl rfl k
  have el : dot_S5000x5_S5x7_S5000x7_1_0_0_1_n_n.lhsIdx (ix2 r q) ((contrEquiv1 dot_S5000x5_S5x7_S5000x7_1_0_0_1_n_n 5 rfl rfl).symm k) = ix2 r k := funext fun ax => Fin.ext (by
    match ax with
    | ⟨0, _⟩ => exact d4_l0 _ _
    | ⟨1, _⟩ => exact (d4_l1 _ _).trans hk)
  have er : dot_S5000x5_S5x7_S5000x7_1_0_0_1_n_n.rhsIdx (ix2 r q) ((contrEquiv1 dot_S5000x5_S5x7_S5000x7_1_0_0_1_n_n 5 rfl rfl).symm k) = ix2 k q := funext fun ax => Fin.ext (by
    match ax with
    | ⟨0, _⟩ => exact (d4_r0 _ _).trans hk
    | ⟨1, _⟩ => exact d4_r1 _ _)
  rw [el, er]

/-! ### The five stored values -/

theorem pay0 (x0 : Vec Ideal S5000x256 .f32) (x1 : Vec Ideal S256x5 .f32) (r : Fin 5000) (q : Fin 5) :
    k0_pay1 (F := Ideal) x0 x1 (ix2 r q) = ∑ k : Fin 256, x0 (ix2 r k) * x1 (ix2 k q) := by
  unfold k0_pay1
  exact d0_matmul _ _ r q

theorem pay2 (x0 : Vec Ideal S5000x5 .f32) (x1 : Vec Ideal S5x5 .f32) (r : Fin 5000) (q : Fin 5) :
    k2_pay1 (F := Ideal) x0 x1 (ix2 r q) = ∑ k : Fin 5, x0 (ix2 r k) * x1 (ix2 k q) := by
  unfold k2_pay1
  rw [shapeCast_self]
  exact d2_matmul _ _ r q

theorem pay4 (x0 : Vec Ideal S5000x5 .f32) (x1 : Vec Ideal S5x7 .f32) (x2 : Vec Ideal S1x7 .f32) (r : Fin 5000) (q : Fin 7) :
    k4_pay1 (F := Ideal) x0 x1 x2 (ix2 r q) = (∑ k : Fin 5, x0 (ix2 r k) * x1 (ix2 k q)) + x2 (ix2 (0 : Fin 1) q) := by
  unfold k4_pay1
  rw [shapeCast_self, shapeCast_self]
  exact congrArg₂ (fun u v : EReal => u + v) (d4_matmul _ _ r q) (broadcastTo_1b_ab_apply x2 broadcasts_S1x7_S5000x7 r q)

theorem pay1 (a h : Vec Ideal S5000x5 .f32) (s : Vec Ideal S5000x1 .f32) (b : Vec Ideal S1x5 .f32) (r : Fin 5000) (q : Fin 5) :
    k1_pay1 (F := Ideal) a h s b (ix2 r q)
      = max (a (ix2 r q) + h (ix2 r q) * s (ix2 r (0 : Fin 1)) + b (ix2 (0 : Fin 1) q)) (Ideal.ofBits .f32 0x00000000#32) := by
  unfold k1_pay1
  rw [shapeCast_self, shapeCast_self, shapeCast_self, shapeCast_self]
  show max (a (ix2 r q) + h (ix2 r q) * broadcastTo S5000x5 s broadcasts_S5000x1_S5000x5 (ix2 r q)
      + broadcastTo S5000x5 b broadcasts_S1x5_S5000x5 (ix2 r q)) _ = _
  rw [broadcastTo_a1_ab_apply, broadcastTo_1b_ab_apply]
  rfl

theorem pay3 (a h : Vec Ideal S5000x5 .f32) (s : Vec Ideal S5000x1 .f32) (b : Vec Ideal S1x5 .f32) (r : Fin 5000) (q : Fin 5) :
    k3_pay1 (F := Ideal) a h s b (ix2 r q)
      = max (a (ix2 r q) + h (ix2 r q) * s (ix2 r (0 : Fin 1)) + b (ix2 (0 : Fin 1) q)) (Ideal.ofBits .f32 0x00000000#32) := by
  unfold k3_pay1
  rw [shapeCast_self, shapeCast_self, shapeCast_self, shapeCast_self]
  show max (a (ix2 r q) + h (ix2 r q) * broadcastTo S5000x5 s broadcasts_S5000x1_S5000x5 (ix2 r q)
      + broadcastTo S5000x5 b broadcasts_S1x5_S5000x5 (ix2 r q)) _ = _
  rw [broadcastTo_a1_ab_apply, broadcastTo_1b_ab_apply]
  rfl

end Cert.KernelIdeal.Payload

end
-- ==== Proof.Spec.lean ====
/-
  The three dense pieces of a graph-convolution layer, as whole-array functions on the extended reals, index by index.

  * `linear x w`: the matrix product, entry (p, q) the sum over k of x(p, k) · w(k, q).
  * `combine agg h s b`: entry (p, q) is max(agg(p, q) + h(p, q) · s(p, 0) + b(0, q), 0) — the neighbours' sum, plus the
    node's own row weighted by the column `s`, plus the bias row `b`, clipped below at the zero word.
  * `linearBias x w b`: the matrix product plus the bias row.

  The zero of the clip is kept as the float word it is printed as: both programs carry the same word, so it is never
  evaluated.
-/
import Idealize.ShloMosaic.PureOps.Ideal
import Idealize.ShloMosaic.Lib.ValueIdx

noncomputable section

namespace Cert.Gcn

open Idealize.ShloMosaic Idealize.ShloMosaic.ValueIdx

/-- The matrix product of an `[M, K]` and a `[K, N]` array on the extended reals. -/
def linear {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, idx2_lt0 i⟩ : Fin M) k) * w (ix2 k (⟨(i 1).val, idx2_lt1 i⟩ : Fin N))

theorem linear_apply {M K N : ℕ} (x : (⟨2, ![M, K]⟩ : Shape).Idx → EReal) (w : (⟨2, ![K, N]⟩ : Shape).Idx → EReal)
    (p : Fin M) (q : Fin N) : linear x w (ix2 p q) = ∑ k : Fin K, x (ix2 p k) * w (ix2 k q) := rfl

/-- One layer's dense tail: neighbours' sum + own row × self weight + bias, clipped below at the zero word. -/
def combine {M N : ℕ} (agg h : (⟨2, ![M, N]⟩ : Shape).Idx → EReal) (s : (⟨2, ![M, 1]⟩ : Shape).Idx → EReal)
    (b : (⟨2, ![1, N]⟩ : Shape).Idx → EReal) : (⟨2, ![M, N]⟩ : Shape).Idx → EReal :=
  fun i => max (agg i + h i * s (ix2 (⟨(i 0).val, idx2_lt0 i⟩ : Fin M) (0 : Fin 1))
    + b (ix2 (0 : Fin 1) (⟨(i 1).val, idx2_lt1 i⟩ : Fin N))) (Ideal.ofBits .f32 0x00000000#32)

theorem combine_apply {M N : ℕ} (agg h : (⟨2, ![M, N]⟩ : Shape).Idx → EReal) (s : (⟨2, ![M, 1]⟩ : Shape).Idx → EReal)
    (b : (⟨2, ![1, N]⟩ : Shape).Idx → EReal) (p : Fin M) (q : Fin N) :
    combine agg h s b (ix2 p q)
      = max (agg (ix2 p q) + h (ix2 p q) * s (ix2 p (0 : Fin 1)) + b (ix2 (0 : Fin 1) q)) (Ideal.ofBits .f32 0x00000000#32) := rfl

/-- The matrix product plus a bias row. -/
def linearBias {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => linear x w i + b (ix2 (0 : Fin 1) (⟨(i 1).val, idx2_lt1 i⟩ : Fin N))

theorem linearBias_apply {M K N : ℕ} (x : (⟨2, ![M, K]⟩ : Shape).Idx → EReal) (w : (⟨2, ![K, N]⟩ : Shape).Idx → EReal)
    (b : (⟨2, ![1, N]⟩ : Shape).Idx → EReal) (p : Fin M) (q : Fin N) :
    linearBias x w b (ix2 p q) = (∑ k : Fin K, x (ix2 p k) * w (ix2 k q)) + b (ix2 (0 : Fin 1) q) := rfl

end Cert.Gcn

end
-- ==== Proof.Region0.lean ====
/-
  Region 0: the matrix product written back block by block IS the whole-array product.
  Point t of the twenty loads rows 5000·t … 5000·t + 4999 of the left operand and all of the right operand, and writes
  the same rows of the result; the twenty row blocks tile the 100000 rows, so after the last write-back the result
  array holds the product of the arrays the region was entered with, entry by entry.
-/
import proofs.«166702_j61160334295401_1_alg».proof.Proof.Gen.KernelIdeal.Frame
import proofs.«166702_j61160334295401_1_alg».proof.Proof.Payloads
import proofs.«166702_j61160334295401_1_alg».proof.Proof.Spec
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The arrays the region is entered with, as functions to the extended reals. -/
abbrev A0 (c : Dev nD) : S100000x256.Idx → EReal := V c main_arg0
abbrev A1 (c : Dev nD) : S256x5.Idx → EReal := V c main_arg2

theorem hz : (![0, 0] : Fin 2 → Nat) = fun _ => 0 := funext fun a => by fin_cases a <;> rfl

/-- The printed index maps over the grid: the left operand's and the result's row block is the point's number, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

/-- The left operand's block at point t, entry (r, j), is the array's entry (5000·t + r, j). -/
theorem lhs_blk (c : Dev nD) (t : Fin cfg0.N) (r : Fin 5000) (j : Fin 256) (p : Fin 100000) (hp : p.val = t.val * 5000 + r.val) :
    (iblk0 V c 0 t : Vec Ideal S5000x256 .f32) (ix2 r j) = (A0 V c) (ix2 p j) := by
  obtain ⟨e0, e1, -⟩ := idx_facts t
  show V c main_arg0 (((cfg0.win 0).blk t).view.emb (ix2 r j)) = V c main_arg0 (ix2 p j)
  congr 1
  funext a
  apply Fin.ext
  match a with
  | ⟨0, _⟩ => show win0_0.index t (0 : Fin 2) * 5000 + 1 * r.val = p.val; rw [e0, hp]; omega
  | ⟨1, _⟩ => show win0_0.index t (1 : Fin 2) * 256 + 1 * j.val = j.val; rw [e1]; omega

/-- The right operand's block at any point is the whole array. -/
theorem rhs_blk (c : Dev nD) (t : Fin cfg0.N) (j : Fin 256) (q : Fin 5) :
    (iblk0 V c 1 t : Vec Ideal S256x5 .f32) (ix2 j q) = (A1 V c) (ix2 j q) := by
  obtain ⟨-, -, e2, e3, -⟩ := idx_facts t
  show V c main_arg2 (((cfg0.win 1).blk t).view.emb (ix2 j q)) = V c main_arg2 (ix2 j q)
  congr 1
  funext a
  apply Fin.ext
  match a with
  | ⟨0, _⟩ => show win0_1.index t (0 : Fin 2) * 256 + 1 * j.val = j.val; rw [e2]; omega
  | ⟨1, _⟩ => show win0_1.index t (1 : Fin 2) * 5 + 1 * q.val = q.val; rw [e3]; omega

/-- The whole-array function the result ends holding. -/
abbrev G (c : Dev nD) : S100000x5.Idx → EReal :=
  Gcn.linear (A0 V c) (A1 V c)

/-- What point t writes back is block t of the whole-array function. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x5) hz]
  obtain ⟨-, -, -, -, e4, e5, hlt⟩ := idx_facts t
  funext y
  obtain ⟨r, q, rfl⟩ : ∃ (r : Fin 5000) (q : Fin 5), y = ix2 r q := ⟨y 0, y 1, eq_ix2 y⟩
  have hp : t.val * 5000 + r.val < 100000 := by have := r.isLt; omega
  have hemb : ((cfg0.win 2).blk t).view.emb (ix2 r q) = (ix2 (⟨t.val * 5000 + r.val, hp⟩ : Fin 100000) q : S100000x5.Idx) := by
    funext a
    apply Fin.ext
    match a with
    | ⟨0, _⟩ => show win0_2.index t (0 : Fin 2) * 5000 + 1 * r.val = t.val * 5000 + r.val; rw [e4]; omega
    | ⟨1, _⟩ => show win0_2.index t (1 : Fin 2) * 5 + 1 * q.val = q.val; rw [e5]; omega
  refine (Payload.pay0 (iblk0 V c 0 t) (iblk0 V c 1 t) r q).trans ?_
  show _ = G V c (((cfg0.win 2).blk t).view.emb (ix2 r q))
  rw [hemb]
  show _ = ∑ j : Fin 256, (A0 V c) (ix2 ⟨t.val * 5000 + r.val, hp⟩ j) * (A1 V c) (ix2 j q)
  refine Finset.sum_congr rfl fun j _ => ?_
  rw [lhs_blk V c t r j ⟨t.val * 5000 + r.val, hp⟩ rfl, rhs_blk V c t j q]

/-- An index of the result array is in point t's block iff each coordinate is in the block's range on its axis. -/
theorem mem_blk (t : Fin cfg0.N) (i : S100000x5.Idx) :
    i ∈ ((cfg0.win 2).blk t).view.set ↔ ∀ a : Fin 2, win0_2.index t a * S5000x5.size a ≤ (i a).val ∧ (i a).val < win0_2.index t a * S5000x5.size a + S5000x5.size a := by
  show i ∈ ((View.whole main_v28).slice (win0_2.rect t)).set ↔ _
  rw [View.set_slice_whole, Rect.mem_set_unit]
  exact Iff.rfl

/-- Row i lies in the block of point i / 5000. -/
theorem cover (i : S100000x5.Idx) : ∃ t : Fin cfg0.N, (cfg0.win 2).flush t = true ∧ i ∈ ((cfg0.win 2).blk t).view.set := by
  have hi0 : (i 0).val < 100000 := (i 0).isLt
  have hi1 : (i 1).val < 5 := (i 1).isLt
  have hN : grid0.N = 20 := N_0
  have ht : (i 0).val / 5000 < cfg0.N := by show (i 0).val / 5000 < grid0.N; rw [hN]; omega
  obtain ⟨-, -, -, -, e4, e5, -⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 5 ≤ (i 1).val ∧ (i 1).val < win0_2.index ⟨(i 0).val / 5000, ht⟩ (1 : Fin 2) * 5 + 5
    rw [e5]; omega

/-- The result array after the region's last write-back. -/
theorem final (c : Dev nD) : (dat0 V c).arrAt 2 cfg0.N = G V c :=
  (dat0 V c).arrAt_eq_of_cover 2 (G V c) (fun t _ => flushed_eq V c t) cover

end Cert.KernelIdeal.Region0

end
-- ==== Proof.Region1.lean ====
/-
  Region 1: a layer's dense tail written back block by block IS the whole-array function.
  Point t of the twenty loads rows 5000·t … 5000·t + 4999 of the neighbours' sums, of the projected features and of
  the self-weight column, and the whole bias row, and writes the same rows of the result: entry (r, q) is
  max(agg + h · s(r, 0) + b(0, q), 0). The twenty row blocks tile the 100000 rows, so after the last write-back the
  result array holds that function of the arrays the region was entered with, entry by entry.
-/
import proofs.«166702_j61160334295401_1_alg».proof.Proof.Gen.KernelIdeal.Frame
import proofs.«166702_j61160334295401_1_alg».proof.Proof.Payloads
import proofs.«166702_j61160334295401_1_alg».proof.Proof.Spec
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The arrays the region is entered with, as functions to the extended reals. -/
abbrev A0 (c : Dev nD) : S100000x5.Idx → EReal := V c main_v41
abbrev A1 (c : Dev nD) : S100000x5.Idx → EReal := V c main_v28
abbrev A2 (c : Dev nD) : S100000x1.Idx → EReal := V c main_v12
abbrev A3 (c : Dev nD) : S1x5.Idx → EReal := V c main_v42

theorem hz : (![0, 0] : Fin 2 → Nat) = fun _ => 0 := funext fun a => by fin_cases a <;> rfl

/-- The printed index maps over the grid: the row block of the three row-blocked operands and of the result is the
    point's number, every other block index is zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 20 :=
  (by decide +kernel : ∀ t : Fin grid1.N, _)

/-- The neighbours' sums' block at point t, entry (r, q), is the array's entry (5000·t + r, q). -/
theorem agg_blk (c : Dev nD) (t : Fin cfg1.N) (r : Fin 5000) (q : Fin 5) (p : Fin 100000) (hp : p.val = t.val * 5000 + r.val) :
    (iblk1 V c 0 t : Vec Ideal S5000x5 .f32) (ix2 r q) = (A0 V c) (ix2 p q) := by
  obtain ⟨e0, e1, -⟩ := idx_facts t
  show V c main_v41 (((cfg1.win 0).blk t).view.emb (ix2 r q)) = V c main_v41 (ix2 p q)
  congr 1
  funext a
  apply Fin.ext
  match a with
  | ⟨0, _⟩ => show win1_0.index t (0 : Fin 2) * 5000 + 1 * r.val = p.val; rw [e0, hp]; omega
  | ⟨1, _⟩ => show win1_0.index t (1 : Fin 2) * 5 + 1 * q.val = q.val; rw [e1]; omega

/-- The projected features' block at point t, entry (r, q), is the array's entry (5000·t + r, q). -/
theorem h_blk (c : Dev nD) (t : Fin cfg1.N) (r : Fin 5000) (q : Fin 5) (p : Fin 100000) (hp : p.val = t.val * 5000 + r.val) :
    (iblk1 V c 1 t : Vec Ideal S5000x5 .f32) (ix2 r q) = (A1 V c) (ix2 p q) := by
  obtain ⟨-, -, e2, e3, -⟩ := idx_facts t
  show V c main_v28 (((cfg1.win 1).blk t).view.emb (ix2 r q)) = V c main_v28 (ix2 p q)
  congr 1
  funext a
  apply Fin.ext
  match a with
  | ⟨0, _⟩ => show win1_1.index t (0 : Fin 2) * 5000 + 1 * r.val = p.val; rw [e2, hp]; omega
  | ⟨1, _⟩ => show win1_1.index t (1 : Fin 2) * 5 + 1 * q.val = q.val; rw [e3]; omega

/-- The self-weight column's block at point t, entry (r, 0), is the column's entry (5000·t + r, 0). -/
theorem s_blk (c : Dev nD) (t : Fin cfg1.N) (r : Fin 5000) (p : Fin 100000) (hp : p.val = t.val * 5000 + r.val) :
    (iblk1 V c 2 t : Vec Ideal S5000x1 .f32) (ix2 r (0 : Fin 1)) = (A2 V c) (ix2 p (0 : Fin 1)) := by
  obtain ⟨-, -, -, -, e4, e5, -⟩ := idx_facts t
  show V c main_v12 (((cfg1.win 2).blk t).view.emb (ix2 r (0 : Fin 1))) = V c main_v12 (ix2 p (0 : Fin 1))
  congr 1
  funext a
  apply Fin.ext
  match a with
  | ⟨0, _⟩ => show win1_2.index t (0 : Fin 2) * 5000 + 1 * r.val = p.val; rw [e4, hp]; omega
  | ⟨1, _⟩ => show win1_2.index t (1 : Fin 2) * 1 + 1 * 0 = 0; rw [e5]

/-- The bias row's block at any point is the whole row. -/
theorem b_blk (c : Dev nD) (t : Fin cfg1.N) (q : Fin 5) :
    (iblk1 V c 3 t : Vec Ideal S1x5 .f32) (ix2 (0 : Fin 1) q) = (A3 V c) (ix2 (0 : Fin 1) q) := by
  obtain ⟨-, -, -, -, -, -, e6, e7, -⟩ := idx_facts t
  show V c main_v42 (((cfg1.win 3).blk t).view.emb (ix2 (0 : Fin 1) q)) = V c main_v42 (ix2 (0 : Fin 1) q)
  congr 1
  funext a
  apply Fin.ext
  match a with
  | ⟨0, _⟩ => show win1_3.index t (0 : Fin 2) * 1 + 1 * 0 = 0; rw [e6]
  | ⟨1, _⟩ => show win1_3.index t (1 : Fin 2) * 5 + 1 * q.val = q.val; rw [e7]; omega

/-- The whole-array function the result ends holding. -/
abbrev G (c : Dev nD) : S100000x5.Idx → EReal :=
  Gcn.combine (A0 V c) (A1 V c)
    (A2 V c) (A3 V c)

/-- What point t writes back is block t of the whole-array function. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x5) hz, View.ld_unit_zero (S := S5000x1) hz, View.ld_unit_zero (S := S1x5) hz]
  obtain ⟨-, -, -, -, -, -, -, -, e8, e9, hlt⟩ := idx_facts t
  funext y
  obtain ⟨r, q, rfl⟩ : ∃ (r : Fin 5000) (q : Fin 5), y = ix2 r q := ⟨y 0, y 1, eq_ix2 y⟩
  have hp : t.val * 5000 + r.val < 100000 := by have := r.isLt; omega
  have hemb : ((cfg1.win 4).blk t).view.emb (ix2 r q) = (ix2 (⟨t.val * 5000 + r.val, hp⟩ : Fin 100000) q : S100000x5.Idx) := by
    funext a
    apply Fin.ext
    match a with
    | ⟨0, _⟩ => show win1_4.index t (0 : Fin 2) * 5000 + 1 * r.val = t.val * 5000 + r.val; rw [e8]; omega
    | ⟨1, _⟩ => show win1_4.index t (1 : Fin 2) * 5 + 1 * q.val = q.val; rw [e9]; omega
  refine (Payload.pay1 (iblk1 V c 0 t) (iblk1 V c 1 t) (iblk1 V c 2 t) (iblk1 V c 3 t) r q).trans ?_
  show _ = G V c (((cfg1.win 4).blk t).view.emb (ix2 r q))
  rw [hemb]
  show _ = max ((A0 V c) (ix2 ⟨t.val * 5000 + r.val, hp⟩ q)
      + (A1 V c) (ix2 ⟨t.val * 5000 + r.val, hp⟩ q) * (A2 V c) (ix2 ⟨t.val * 5000 + r.val, hp⟩ (0 : Fin 1))
      + (A3 V c) (ix2 (0 : Fin 1) q)) (Ideal.ofBits .f32 0x00000000#32)
  rw [agg_blk V c t r q ⟨t.val * 5000 + r.val, hp⟩ rfl, h_blk V c t r q ⟨t.val * 5000 + r.val, hp⟩ rfl,
    s_blk V c t r ⟨t.val * 5000 + r.val, hp⟩ rfl, b_blk V c t q]

/-- An index of the result array is in point t's block iff each coordinate is in the block's range on its axis. -/
theorem mem_blk (t : Fin cfg1.N) (i : S100000x5.Idx) :
    i ∈ ((cfg1.win 4).blk t).view.set ↔ ∀ a : Fin 2, win1_4.index t a * S5000x5.size a ≤ (i a).val ∧ (i a).val < win1_4.index t a * S5000x5.size a + S5000x5.size a := by
  show i ∈ ((View.whole main_v43).slice (win1_4.rect t)).set ↔ _
  rw [View.set_slice_whole, Rect.mem_set_unit]
  exact Iff.rfl

/-- Row i lies in the block of point i / 5000. -/
theorem cover (i : S100000x5.Idx) : ∃ t : Fin cfg1.N, (cfg1.win 4).flush t = true ∧ i ∈ ((cfg1.win 4).blk t).view.set := by
  have hi0 : (i 0).val < 100000 := (i 0).isLt
  have hi1 : (i 1).val < 5 := (i 1).isLt
  have hN : grid1.N = 20 := N_1
  have ht : (i 0).val / 5000 < cfg1.N := by show (i 0).val / 5000 < grid1.N; rw [hN]; omega
  obtain ⟨-, -, -, -, -, -, -, -, e8, e9, -⟩ := idx_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win1_4.index ⟨(i 0).val / 5000, ht⟩ (1 : Fin 2) * 5 ≤ (i 1).val ∧ (i 1).val < win1_4.index ⟨(i 0).val / 5000, ht⟩ (1 : Fin 2) * 5 + 5
    rw [e9]; omega

/-- The result array after the region's last write-back. -/
theorem final (c : Dev nD) : (dat1 V c).arrAt 4 cfg1.N = G V c :=
  (dat1 V c).arrAt_eq_of_cover 4 (G V c) (fun t _ => flushed_eq V c t) cover

end Cert.KernelIdeal.Region1

end
-- ==== Proof.Region2.lean ====
/-
  Region 2: the matrix product written back block by block IS the whole-array product.
  Point t of the twenty loads rows 5000·t … 5000·t + 4999 of the left operand and all of the right operand, and writes
  the same rows of the result; the twenty row blocks tile the 100000 rows, so after the last write-back the result
  array holds the product of the arrays the region was entered with, entry by entry.
-/
import proofs.«166702_j61160334295401_1_alg».proof.Proof.Gen.KernelIdeal.Frame
import proofs.«166702_j61160334295401_1_alg».proof.Proof.Payloads
import proofs.«166702_j61160334295401_1_alg».proof.Proof.Spec
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The arrays the region is entered with, as functions to the extended reals. -/
abbrev A0 (c : Dev nD) : S100000x5.Idx → EReal := V c main_v43
abbrev A1 (c : Dev nD) : S5x5.Idx → EReal := V c main_arg4

theorem hz : (![0, 0] : Fin 2 → Nat) = fun _ => 0 := funext fun a => by fin_cases a <;> rfl

/-- The printed index maps over the grid: the left operand's and the result's row block is the point's number, every
    other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 20 :=
  (by decide +kernel : ∀ t : Fin grid2.N, _)

/-- The left operand's block at point t, entry (r, j), is the array's entry (5000·t + r, j). -/
theorem lhs_blk (c : Dev nD) (t : Fin cfg2.N) (r : Fin 5000) (j : Fin 5) (p : Fin 100000) (hp : p.val = t.val * 5000 + r.val) :
    (iblk2 V c 0 t : Vec Ideal S5000x5 .f32) (ix2 r j) = (A0 V c) (ix2 p j) := by
  obtain ⟨e0, e1, -⟩ := idx_facts t
  show V c main_v43 (((cfg2.win 0).blk t).view.emb (ix2 r j)) = V c main_v43 (ix2 p j)
  congr 1
  funext a
  apply Fin.ext
  match a with
  | ⟨0, _⟩ => show win2_0.index t (0 : Fin 2) * 5000 + 1 * r.val = p.val; rw [e0, hp]; omega
  | ⟨1, _⟩ => show win2_0.index t (1 : Fin 2) * 5 + 1 * j.val = j.val; rw [e1]; omega

/-- The right operand's block at any point is the whole array. -/
theorem rhs_blk (c : Dev nD) (t : Fin cfg2.N) (j : Fin 5) (q : Fin 5) :
    (iblk2 V c 1 t : Vec Ideal S5x5 .f32) (ix2 j q) = (A1 V c) (ix2 j q) := by
  obtain ⟨-, -, e2, e3, -⟩ := idx_facts t
  show V c main_arg4 (((cfg2.win 1).blk t).view.emb (ix2 j q)) = V c main_arg4 (ix2 j q)
  congr 1
  funext a
  apply Fin.ext
  match a with
  | ⟨0, _⟩ => show win2_1.index t (0 : Fin 2) * 5 + 1 * j.val = j.val; rw [e2]; omega
  | ⟨1, _⟩ => show win2_1.index t (1 : Fin 2) * 5 + 1 * q.val = q.val; rw [e3]; omega

/-- The whole-array function the result ends holding. -/
abbrev G (c : Dev nD) : S100000x5.Idx → EReal :=
  Gcn.linear (A0 V c) (A1 V c)

/-- What point t writes back is block t of the whole-array function. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S5000x5) hz, View.ld_unit_zero (S := S5x5) hz]
  obtain ⟨-, -, -, -, e4, e5, hlt⟩ := idx_facts t
  funext y
  obtain ⟨r, q, rfl⟩ : ∃ (r : Fin 5000) (q : Fin 5), y = ix2 r q := ⟨y 0, y 1, eq_ix2 y⟩
  have hp : t.val * 5000 + r.val < 100000 := by have := r.isLt; omega
  have hemb : ((cfg2.win 2).blk t).view.emb (ix2 r q) = (ix2 (⟨t.val * 5000 + r.val, hp⟩ : Fin 100000) q : S100000x5.Idx) := by
    funext a
    apply Fin.ext
    match a with
    | ⟨0, _⟩ => show win2_2.index t (0 : Fin 2) * 5000 + 1 * r.val = t.val * 5000 + r.val; rw [e4]; omega
    | ⟨1, _⟩ => show win2_2.index t (1 : Fin 2) * 5 + 1 * q.val = q.val; rw [e5]; omega
  refine (Payload.pay2 (iblk2 V c 0 t) (iblk2 V c 1 t) r q).trans ?_
  show _ = G V c (((cfg2.win 2).blk t).view.emb (ix2 r q))
  rw [hemb]
  show _ = ∑ j : Fin 5, (A0 V c) (ix2 ⟨t.val * 5000 + r.val, hp⟩ j) * (A1 V c) (ix2 j q)
  refine Finset.sum_congr rfl fun j _ => ?_
  rw [lhs_blk V c t r j ⟨t.val * 5000 + r.val, hp⟩ rfl, rhs_blk V c t j q]

/-- An index of the result array is in point t's block iff each coordinate is in the block's range on its axis. -/
theorem mem_blk (t : Fin cfg2.N) (i : S100000x5.Idx) :
    i ∈ ((cfg2.win 2).blk t).view.set ↔ ∀ a : Fin 2, win2_2.index t a * S5000x5.size a ≤ (i a).val ∧ (i a).val < win2_2.index t a * S5000x5.size a + S5000x5.size a := by
  show i ∈ ((View.whole main_v44).slice (win2_2.rect t)).set ↔ _
  rw [View.set_slice_whole, Rect.mem_set_unit]
  exact Iff.rfl

/-- Row i lies in the block of point i / 5000. -/
theorem cover (i : S100000x5.Idx) : ∃ t : Fin cfg2.N, (cfg2.win 2).flush t = true ∧ i ∈ ((cfg2.win 2).blk t).view.set := by
  have hi0 : (i 0).val < 100000 := (i 0).isLt
  have hi1 : (i 1).val < 5 := (i 1).isLt
  have hN : grid2.N = 20 := N_2
  have ht : (i 0).val / 5000 < cfg2.N := by show (i 0).val / 5000 < grid2.N; rw [hN]; omega
  obtain ⟨-, -, -, -, e4, e5, -⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 5 ≤ (i 1).val ∧ (i 1).val < win2_2.index ⟨(i 0).val / 5000, ht⟩ (1 : Fin 2) * 5 + 5
    rw [e5]; omega

/-- The result array after the region's last write-back. -/
theorem final (c : Dev nD) : (dat2 V c).arrAt 2 cfg2.N = G V c :=
  (dat2 V c).arrAt_eq_of_cover 2 (G V c) (fun t _ => flushed_eq V c t) cover

end Cert.KernelIdeal.Region2

end
-- ==== Proof.Region3.lean ====
/-
  Region 3: a layer's dense tail written back block by block IS the whole-array function.
  Point t of the twenty loads rows 5000·t … 5000·t + 4999 of the neighbours' sums, of the projected features and of
  the self-weight column, and the whole bias row, and writes the same rows of the result: entry (r, q) is
  max(agg + h · s(r, 0) + b(0, q), 0). The twenty row blocks tile the 100000 rows, so after the last write-back the
  result array holds that function of the arrays the region was entered with, entry by entry.
-/
import proofs.«166702_j61160334295401_1_alg».proof.Proof.Gen.KernelIdeal.Frame
import proofs.«166702_j61160334295401_1_alg».proof.Proof.Payloads
import proofs.«166702_j61160334295401_1_alg».proof.Proof.Spec
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The arrays the region is entered with, as functions to the extended reals. -/
abbrev A0 (c : Dev nD) : S100000x5.Idx → EReal := V c main_v57
abbrev A1 (c : Dev nD) : S100000x5.Idx → EReal := V c main_v44
abbrev A2 (c : Dev nD) : S100000x1.Idx → EReal := V c main_v12
abbrev A3 (c : Dev nD) : S1x5.Idx → EReal := V c main_v58

theorem hz : (![0, 0] : Fin 2 → Nat) = fun _ => 0 := funext fun a => by fin_cases a <;> rfl

/-- The printed index maps over the grid: the row block of the three row-blocked operands and of the result is the
    point's number, every other block index is zero. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 ∧ t.val < 20 :=
  (by decide +kernel : ∀ t : Fin grid3.N, _)

/-- The neighbours' sums' block at point t, entry (r, q), is the array's entry (5000·t + r, q). -/
theorem agg_blk (c : Dev nD) (t : Fin cfg3.N) (r : Fin 5000) (q : Fin 5) (p : Fin 100000) (hp : p.val = t.val * 5000 + r.val) :
    (iblk3 V c 0 t : Vec Ideal S5000x5 .f32) (ix2 r q) = (A0 V c) (ix2 p q) := by
  obtain ⟨e0, e1, -⟩ := idx_facts t
  show V c main_v57 (((cfg3.win 0).blk t).view.emb (ix2 r q)) = V c main_v57 (ix2 p q)
  congr 1
  funext a
  apply Fin.ext
  match a with
  | ⟨0, _⟩ => show win3_0.index t (0 : Fin 2) * 5000 + 1 * r.val = p.val; rw [e0, hp]; omega
  | ⟨1, _⟩ => show win3_0.index t (1 : Fin 2) * 5 + 1 * q.val = q.val; rw [e1]; omega

/-- The projected features' block at point t, entry (r, q), is the array's entry (5000·t + r, q). -/
theorem h_blk (c : Dev nD) (t : Fin cfg3.N) (r : Fin 5000) (q : Fin 5) (p : Fin 100000) (hp : p.val = t.val * 5000 + r.val) :
    (iblk3 V c 1 t : Vec Ideal S5000x5 .f32) (ix2 r q) = (A1 V c) (ix2 p q) := by
  obtain ⟨-, -, e2, e3, -⟩ := idx_facts t
  show V c main_v44 (((cfg3.win 1).blk t).view.emb (ix2 r q)) = V c main_v44 (ix2 p q)
  congr 1
  funext a
  apply Fin.ext
  match a with
  | ⟨0, _⟩ => show win3_1.index t (0 : Fin 2) * 5000 + 1 * r.val = p.val; rw [e2, hp]; omega
  | ⟨1, _⟩ => show win3_1.index t (1 : Fin 2) * 5 + 1 * q.val = q.val; rw [e3]; omega

/-- The self-weight column's block at point t, entry (r, 0), is the column's entry (5000·t + r, 0). -/
theorem s_blk (c : Dev nD) (t : Fin cfg3.N) (r : Fin 5000) (p : Fin 100000) (hp : p.val = t.val * 5000 + r.val) :
    (iblk3 V c 2 t : Vec Ideal S5000x1 .f32) (ix2 r (0 : Fin 1)) = (A2 V c) (ix2 p (0 : Fin 1)) := by
  obtain ⟨-, -, -, -, e4, e5, -⟩ := idx_facts t
  show V c main_v12 (((cfg3.win 2).blk t).view.emb (ix2 r (0 : Fin 1))) = V c main_v12 (ix2 p (0 : Fin 1))
  congr 1
  funext a
  apply Fin.ext
  match a with
  | ⟨0, _⟩ => show win3_2.index t (0 : Fin 2) * 5000 + 1 * r.val = p.val; rw [e4, hp]; omega
  | ⟨1, _⟩ => show win3_2.index t (1 : Fin 2) * 1 + 1 * 0 = 0; rw [e5]

/-- The bias row's block at any point is the whole row. -/
theorem b_blk (c : Dev nD) (t : Fin cfg3.N) (q : Fin 5) :
    (iblk3 V c 3 t : Vec Ideal S1x5 .f32) (ix2 (0 : Fin 1) q) = (A3 V c) (ix2 (0 : Fin 1) q) := by
  obtain ⟨-, -, -, -, -, -, e6, e7, -⟩ := idx_facts t
  show V c main_v58 (((cfg3.win 3).blk t).view.emb (ix2 (0 : Fin 1) q)) = V c main_v58 (ix2 (0 : Fin 1) q)
  congr 1
  funext a
  apply Fin.ext
  match a with
  | ⟨0, _⟩ => show win3_3.index t (0 : Fin 2) * 1 + 1 * 0 = 0; rw [e6]
  | ⟨1, _⟩ => show win3_3.index t (1 : Fin 2) * 5 + 1 * q.val = q.val; rw [e7]; omega

/-- The whole-array function the result ends holding. -/
abbrev G (c : Dev nD) : S100000x5.Idx → EReal :=
  Gcn.combine (A0 V c) (A1 V c)
    (A2 V c) (A3 V c)

/-- What point t writes back is block t of the whole-array function. -/
theorem flushed_eq (c : Dev nD) (t : Fin cfg3.N) :
    (dat3 V c).flushed 4 t = ((cfg3.win 4).blk t).view.read (Elt Ideal) (G V c) := by
  show (cfg3.win 4).cut (grid3.coords t) ((dat3 V c).after 4 t) = _
  rw [after3_4]
  unfold out3_4
  rw [View.canon_unit_zero hz]
  simp only [View.ld_unit_zero (S := S5000x5) hz, View.ld_unit_zero (S := S5000x1) hz, View.ld_unit_zero (S := S1x5) hz]
  obtain ⟨-, -, -, -, -, -, -, -, e8, e9, hlt⟩ := idx_facts t
  funext y
  obtain ⟨r, q, rfl⟩ : ∃ (r : Fin 5000) (q : Fin 5), y = ix2 r q := ⟨y 0, y 1, eq_ix2 y⟩
  have hp : t.val * 5000 + r.val < 100000 := by have := r.isLt; omega
  have hemb : ((cfg3.win 4).blk t).view.emb (ix2 r q) = (ix2 (⟨t.val * 5000 + r.val, hp⟩ : Fin 100000) q : S100000x5.Idx) := by
    funext a
    apply Fin.ext
    match a with
    | ⟨0, _⟩ => show win3_4.index t (0 : Fin 2) * 5000 + 1 * r.val = t.val * 5000 + r.val; rw [e8]; omega
    | ⟨1, _⟩ => show win3_4.index t (1 : Fin 2) * 5 + 1 * q.val = q.val; rw [e9]; omega
  refine (Payload.pay3 (iblk3 V c 0 t) (iblk3 V c 1 t) (iblk3 V c 2 t) (iblk3 V c 3 t) r q).trans ?_
  show _ = G V c (((cfg3.win 4).blk t).view.emb (ix2 r q))
  rw [hemb]
  show _ = max ((A0 V c) (ix2 ⟨t.val * 5000 + r.val, hp⟩ q)
      + (A1 V c) (ix2 ⟨t.val * 5000 + r.val, hp⟩ q) * (A2 V c) (ix2 ⟨t.val * 5000 + r.val, hp⟩ (0 : Fin 1))
      + (A3 V c) (ix2 (0 : Fin 1) q)) (Ideal.ofBits .f32 0x00000000#32)
  rw [agg_blk V c t r q ⟨t.val * 5000 + r.val, hp⟩ rfl, h_blk V c t r q ⟨t.val * 5000 + r.val, hp⟩ rfl,
    s_blk V c t r ⟨t.val * 5000 + r.val, hp⟩ rfl, b_blk V c t q]

/-- An index of the result array is in point t's block iff each coordinate is in the block's range on its axis. -/
theorem mem_blk (t : Fin cfg3.N) (i : S100000x5.Idx) :
    i ∈ ((cfg3.win 4).blk t).view.set ↔ ∀ a : Fin 2, win3_4.index t a * S5000x5.size a ≤ (i a).val ∧ (i a).val < win3_4.index t a * S5000x5.size a + S5000x5.size a := by
  show i ∈ ((View.whole main_v59).slice (win3_4.rect t)).set ↔ _
  rw [View.set_slice_whole, Rect.mem_set_unit]
  exact Iff.rfl

/-- Row i lies in the block of point i / 5000. -/
theorem cover (i : S100000x5.Idx) : ∃ t : Fin cfg3.N, (cfg3.win 4).flush t = true ∧ i ∈ ((cfg3.win 4).blk t).view.set := by
  have hi0 : (i 0).val < 100000 := (i 0).isLt
  have hi1 : (i 1).val < 5 := (i 1).isLt
  have hN : grid3.N = 20 := N_3
  have ht : (i 0).val / 5000 < cfg3.N := by show (i 0).val / 5000 < grid3.N; rw [hN]; omega
  obtain ⟨-, -, -, -, -, -, -, -, e8, e9, -⟩ := idx_facts ⟨(i 0).val / 5000, ht⟩
  refine ⟨⟨(i 0).val / 5000, ht⟩, flush3_4 _, ?_⟩
  rw [mem_blk]
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win3_4.index ⟨(i 0).val / 5000, ht⟩ (1 : Fin 2) * 5 ≤ (i 1).val ∧ (i 1).val < win3_4.index ⟨(i 0).val / 5000, ht⟩ (1 : Fin 2) * 5 + 5
    rw [e9]; omega

/-- The result array after the region's last write-back. -/
theorem final (c : Dev nD) : (dat3 V c).arrAt 4 cfg3.N = G V c :=
  (dat3 V c).arrAt_eq_of_cover 4 (G V c) (fun t _ => flushed_eq V c t) cover

end Cert.KernelIdeal.Region3

end
-- ==== Proof.Region4.lean ====
/-
  Region 4: the biased matrix product written back block by block IS the whole-array product.
  Point t of the twenty loads rows 5000·t … 5000·t + 4999 of the left operand and all of the right operand and of the bias row, and writes
  the same rows of the result; the twenty row blocks tile the 100000 rows, so after the last write-back the result
  array holds the product plus the bias row of the arrays the region was entered with, entry by entry.
-/
import proofs.«166702_j61160334295401_1_alg».proof.Proof.Gen.KernelIdeal.Frame
import proofs.«166702_j61160334295401_1_alg».proof.Proof.Payloads
import proofs.«166702_j61160334295401_1_alg».proof.Proof.Spec
import Idealize.ShloMosaic.Lib.Pipeline.Value

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The arrays the region is entered with, as functions to the extended reals. -/
abbrev A0 (c : Dev nD) : S100000x5.Idx → EReal := V c main_v59
abbrev A1 (c : Dev nD) : S5x7.Idx → EReal := V c main_arg6
abbrev A2 (c : Dev nD) : S1x7.Idx → EReal := V c main_v60

theorem hz : (![0, 0] : Fin 2 → Nat) = fun _ => 0 := funext fun a => by fin_cases a <;> rfl

/-- The printed index maps over the grid: the left operand's and the result's row block is the point's number, every
    other block index is zero. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 ∧ t.val < 20 :=
  (by decide +kernel : ∀ t : Fin grid4.N, _)

/-- The left operand's block at point t, entry (r, j), is the array's entry (5000·t + r, j). -/
theorem lhs_blk (c : Dev nD) (t : Fin cfg4.N) (r : Fin 5000) (j : Fin 5) (p : Fin 100000) (hp : p.val = t.val * 5000 + r.val) :
    (iblk4 V c 0 t : Vec Ideal S5000x5 .f32) (ix2 r j) = (A0 V c) (ix2 p j) := by
  obtain ⟨e0, e1, -⟩ := idx_facts t
  show V c main_v59 (((cfg4.win 0).blk t).view.emb (ix2 r j)) = V c main_v59 (ix2 p j)
  congr 1
  funext a
  apply Fin.ext
  match a with
  | ⟨0, _⟩ => show win4_0.index t (0 : Fin 2) * 5000 + 1 * r.val = p.val; rw [e0, hp]; omega
  | ⟨1, _⟩ => show win4_0.index t (1 : Fin 2) * 5 + 1 * j.val = j.val; rw [e1]; omega

/-- The right operand's block at any point is the whole array. -/
theorem rhs_blk (c : Dev nD) (t : Fin cfg4.N) (j : Fin 5) (q : Fin 7) :
    (iblk4 V c 1 t : Vec Ideal S5x7 .f32) (ix2 j q) = (A1 V c) (ix2 j q) := by
  obtain ⟨-, -, e2, e3, -⟩ := idx_facts t
  show V c main_arg6 (((cfg4.win 1).blk t).view.emb (ix2 j q)) = V c main_arg6 (ix2 j q)
  congr 1
  funext a
  apply Fin.ext
  match a with
  | ⟨0, _⟩ => show win4_1.index t (0 : Fin 2) * 5 + 1 * j.val = j.val; rw [e2]; omega
  | ⟨1, _⟩ => show win4_1.index t (1 : Fin 2) * 7 + 1 * q.val = q.val; rw [e3]; omega

/-- The bias row's block at any point is the whole row. -/
theorem bias_blk (c : Dev nD) (t : Fin cfg4.N) (q : Fin 7) :
    (iblk4 V c 2 t : Vec Ideal S1x7 .f32) (ix2 (0 : Fin 1) q) = (A2 V c) (ix2 (0 : Fin 1) q) := by
  obtain ⟨-, -, -, -, e4, e5, -⟩ := idx_facts t
  show V c main_v60 (((cfg4.win 2).blk t).view.emb (ix2 (0 : Fin 1) q)) = V c main_v60 (ix2 (0 : Fin 1) q)
  congr 1
  funext a
  apply Fin.ext
  match a with
  | ⟨0, _⟩ => show win4_2.index t (0 : Fin 2) * 1 + 1 * 0 = 0; rw [e4]
  | ⟨1, _⟩ => show win4_2.index t (1 : Fin 2) * 7 + 1 * q.val = q.val; rw [e5]; omega

/-- The whole-array function the result ends holding. -/
abbrev G (c : Dev nD) : S100000x7.Idx → EReal :=
  Gcn.linearBias (A0 V c) (A1 V c) (A2 V c)

/-- What point t writes back is block t of the whole-array function. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S5000x5) hz, View.ld_unit_zero (S := S5x7) hz, View.ld_unit_zero (S := S1x7) hz]
  obtain ⟨-, -, -, -, -, -, e4, e5, hlt⟩ := idx_facts t
  funext y
  obtain ⟨r, q, rfl⟩ : ∃ (r : Fin 5000) (q : Fin 7), y = ix2 r q := ⟨y 0, y 1, eq_ix2 y⟩
  have hp : t.val * 5000 + r.val < 100000 := by have := r.isLt; omega
  have hemb : ((cfg4.win 3).blk t).view.emb (ix2 r q) = (ix2 (⟨t.val * 5000 + r.val, hp⟩ : Fin 100000) q : S100000x7.Idx) := by
    funext a
    apply Fin.ext
    match a with
    | ⟨0, _⟩ => show win4_3.index t (0 : Fin 2) * 5000 + 1 * r.val = t.val * 5000 + r.val; rw [e4]; omega
    | ⟨1, _⟩ => show win4_3.index t (1 : Fin 2) * 7 + 1 * q.val = q.val; rw [e5]; omega
  refine (Payload.pay4 (iblk4 V c 0 t) (iblk4 V c 1 t) (iblk4 V c 2 t) r q).trans ?_
  show _ = G V c (((cfg4.win 3).blk t).view.emb (ix2 r q))
  rw [hemb]
  show _ = (∑ j : Fin 5, (A0 V c) (ix2 ⟨t.val * 5000 + r.val, hp⟩ j) * (A1 V c) (ix2 j q)) + (A2 V c) (ix2 (0 : Fin 1) q)
  rw [bias_blk V c t q]
  congr 1
  refine Finset.sum_congr rfl fun j _ => ?_
  rw [lhs_blk V c t r j ⟨t.val * 5000 + r.val, hp⟩ rfl, rhs_blk V c t j q]

/-- An index of the result array is in point t's block iff each coordinate is in the block's range on its axis. -/
theorem mem_blk (t : Fin cfg4.N) (i : S100000x7.Idx) :
    i ∈ ((cfg4.win 3).blk t).view.set ↔ ∀ a : Fin 2, win4_3.index t a * S5000x7.size a ≤ (i a).val ∧ (i a).val < win4_3.index t a * S5000x7.size a + S5000x7.size a := by
  show i ∈ ((View.whole main_v61).slice (win4_3.rect t)).set ↔ _
  rw [View.set_slice_whole, Rect.mem_set_unit]
  exact Iff.rfl

/-- Row i lies in the block of point i / 5000. -/
theorem cover (i : S100000x7.Idx) : ∃ t : Fin cfg4.N, (cfg4.win 3).flush t = true ∧ i ∈ ((cfg4.win 3).blk t).view.set := by
  have hi0 : (i 0).val < 100000 := (i 0).isLt
  have hi1 : (i 1).val < 7 := (i 1).isLt
  have hN : grid4.N = 20 := N_4
  have ht : (i 0).val / 5000 < cfg4.N := by show (i 0).val / 5000 < grid4.N; rw [hN]; omega
  obtain ⟨-, -, -, -, -, -, e4, e5, -⟩ := idx_facts ⟨(i 0).val / 5000, ht⟩
  refine ⟨⟨(i 0).val / 5000, ht⟩, flush4_3 _, ?_⟩
  rw [mem_blk]
  intro a
  match a with
  | ⟨0, _⟩ =>
    show win4_3.index ⟨(i 0).val / 5000, ht⟩ (0 : Fin 2) * 5000 ≤ (i 0).val ∧ (i 0).val < win4_3.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_3.index ⟨(i 0).val / 5000, ht⟩ (1 : Fin 2) * 7 ≤ (i 1).val ∧ (i 1).val < win4_3.index ⟨(i 0).val / 5000, ht⟩ (1 : Fin 2) * 7 + 7
    rw [e5]; omega

/-- The result array after the region's last write-back. -/
theorem final (c : Dev nD) : (dat4 V c).arrAt 3 cfg4.N = G V c :=
  (dat4 V c).arrAt_eq_of_cover 3 (G V c) (fun t _ => flushed_eq V c t) cover

end Cert.KernelIdeal.Region4

end
-- ==== Proof.KernelValue.lean ====
/-
  The idealized kernel's result as ONE function of its eight arguments.

  One layer is `layer h e b` = max(agg h e + h · selfw e + b, 0) entry by entry, where `agg`, `selfw` are the host
  functions of the edge array; the network is the biased product of the second layer's output with the last weights,
  the second layer applied to the product of the first layer's output with the second weights, the first layer
  applied to the product of the node features with the first weights.

  The proof walks the program's nine segment boundaries: at each, the buffers the next segment reads are named as
  functions of the arguments — a region's result by that region's whole-array lemma at the contents it was entered
  with, a host stretch's result by the stretch's lemma, and an untouched buffer by what it held one boundary earlier.
-/
import proofs.«166702_j61160334295401_1_alg».proof.Proof.KernelRun
import proofs.«166702_j61160334295401_1_alg».proof.Proof.Chain
import proofs.«166702_j61160334295401_1_alg».proof.Proof.Region0
import proofs.«166702_j61160334295401_1_alg».proof.Proof.Region1
import proofs.«166702_j61160334295401_1_alg».proof.Proof.Region2
import proofs.«166702_j61160334295401_1_alg».proof.Proof.Region3
import proofs.«166702_j61160334295401_1_alg».proof.Proof.Region4

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.Chain

/-! ## The network as a function of its arguments -/

/-- One layer's output from the projected features `h`, the edge array `e` and the bias vector `b`. -/
def layer (h : S100000x5.Idx → EReal) (e : (⟨S2x3200000, .i32⟩ : BufTy).Contents (Elt Ideal))
    (b : (⟨S5, .f32⟩ : BufTy).Contents (Elt Ideal)) : S100000x5.Idx → EReal :=
  Gcn.combine (agg (F := Ideal) h e) h (selfw (F := Ideal) e) (row5 (F := Ideal) b)

/-- The whole network. -/
def net (x : S100000x256.Idx → EReal) (e : (⟨S2x3200000, .i32⟩ : BufTy).Contents (Elt Ideal))
    (w1 : S256x5.Idx → EReal) (b1 : (⟨S5, .f32⟩ : BufTy).Contents (Elt Ideal))
    (w2 : S5x5.Idx → EReal) (b2 : (⟨S5, .f32⟩ : BufTy).Contents (Elt Ideal))
    (w3 : S5x7.Idx → EReal) (b3 : (⟨S7, .f32⟩ : BufTy).Contents (Elt Ideal)) : S100000x7.Idx → EReal :=
  Gcn.linearBias (layer (Gcn.linear (layer (Gcn.linear x w1) e b1) w2) e b2) w3 (row7 (F := Ideal) b3)

theorem combine_congr {M N : ℕ} {a a' h h' : (⟨2, ![M, N]⟩ : Shape).Idx → EReal} {s s' : (⟨2, ![M, 1]⟩ : Shape).Idx → EReal}
    {b b' : (⟨2, ![1, N]⟩ : Shape).Idx → EReal} (ha : a = a') (hh : h = h') (hs : s = s') (hb : b = b') :
    Gcn.combine a h s b = Gcn.combine a' h' s' b' := by subst ha hh hs hb; rfl

theorem linearBias_congr {M K N : ℕ} {x x' : (⟨2, ![M, K]⟩ : Shape).Idx → EReal} {w w' : (⟨2, ![K, N]⟩ : Shape).Idx → EReal}
    {b b' : (⟨2, ![1, N]⟩ : Shape).Idx → EReal} (hx : x = x') (hw : w = w') (hb : b = b') :
    Gcn.linearBias x w b = Gcn.linearBias x' w' b' := by subst hx hw hb; rfl

theorem linear_congr {M K N : ℕ} {x x' : (⟨2, ![M, K]⟩ : Shape).Idx → EReal} {w w' : (⟨2, ![K, N]⟩ : Shape).Idx → EReal}
    (hx : x = x') (hw : w = w') : Gcn.linear x w = Gcn.linear x' w' := by subst hx hw; rfl

variable (m : (ℓ : Loc nD τ sig) → Buf (Elt Ideal) ℓ) (ρ : Dev nD → PrngReg)

/-- The arguments' launch contents. -/
abbrev x0 (c : Dev nD) : S100000x256.Idx → EReal := m ((c : Thread nD τ).loc main_arg0)
abbrev x1 (c : Dev nD) : (⟨S2x3200000, .i32⟩ : BufTy).Contents (Elt Ideal) := m ((c : Thread nD τ).loc main_arg1)
abbrev x2 (c : Dev nD) : S256x5.Idx → EReal := m ((c : Thread nD τ).loc main_arg2)
abbrev x3 (c : Dev nD) : (⟨S5, .f32⟩ : BufTy).Contents (Elt Ideal) := m ((c : Thread nD τ).loc main_arg3)
abbrev x4 (c : Dev nD) : S5x5.Idx → EReal := m ((c : Thread nD τ).loc main_arg4)
abbrev x5 (c : Dev nD) : (⟨S5, .f32⟩ : BufTy).Contents (Elt Ideal) := m ((c : Thread nD τ).loc main_arg5)
abbrev x6 (c : Dev nD) : S5x7.Idx → EReal := m ((c : Thread nD τ).loc main_arg6)
abbrev x7 (c : Dev nD) : (⟨S7, .f32⟩ : BufTy).Contents (Elt Ideal) := m ((c : Thread nD τ).loc main_arg7)

/-- The projected features, the layers' outputs. -/
abbrev h1 (c : Dev nD) : S100000x5.Idx → EReal := Gcn.linear (x0 m c) (x2 m c)
abbrev z1 (c : Dev nD) : S100000x5.Idx → EReal := layer (h1 m c) (x1 m c) (x3 m c)
abbrev h2 (c : Dev nD) : S100000x5.Idx → EReal := Gcn.linear (z1 m c) (x4 m c)
abbrev z2 (c : Dev nD) : S100000x5.Idx → EReal := layer (h2 m c) (x1 m c) (x5 m c)

/-! ## Before region 0: the node features and the first weights are as launched -/

theorem at1_arg0 (c : Dev nD) : W1 m ρ c (Proc.devRef .tc main_arg0) = x0 m c :=
  (keep_hostOps0 (W0 m ρ c) main_arg0 (by decide)).trans (rfl)

theorem at1_arg2 (c : Dev nD) : W1 m ρ c (Proc.devRef .tc main_arg2) = x2 m c :=
  (keep_hostOps0 (W0 m ρ c) main_arg2 (by decide)).trans (rfl)

/-! ## After region 0: the projected features; the edge functions and the later arguments untouched -/

theorem at2_v28 (c : Dev nD) : W2 m ρ c (Proc.devRef .tc main_v28) = h1 m c :=
  (W2_arr m ρ c 2).trans ((Region0.final (V1 m ρ) c).trans (linear_congr (at1_arg0 m ρ c) (at1_arg2 m ρ c)))
theorem at2_v1 (c : Dev nD) : W2 m ρ c (Proc.devRef .tc main_v1) = src (F := Ideal) (x1 m c) :=
  (W2_of_ne m ρ c main_v1 (by decide)).trans (stretch0_v1 (W0 m ρ c))

theorem at2_v3 (c : Dev nD) : W2 m ρ c (Proc.devRef .tc main_v3) = dst (F := Ideal) (x1 m c) :=
  (W2_of_ne m ρ c main_v3 (by decide)).trans (stretch0_v3 (W0 m ρ c))

theorem at2_v27 (c : Dev nD) : W2 m ρ c (Proc.devRef .tc main_v27) = norm (F := Ideal) (x1 m c) :=
  (W2_of_ne m ρ c main_v27 (by decide)).trans (stretch0_v27 (W0 m ρ c))

theorem at2_v12 (c : Dev nD) : W2 m ρ c (Proc.devRef .tc main_v12) = selfw (F := Ideal) (x1 m c) :=
  (W2_of_ne m ρ c main_v12 (by decide)).trans (stretch0_v12 (W0 m ρ c))

theorem at2_arg3 (c : Dev nD) : W2 m ρ c (Proc.devRef .tc main_arg3) = x3 m c :=
  (W2_of_ne m ρ c main_arg3 (by decide)).trans ((keep_hostOps0 (W0 m ρ c) main_arg3 (by decide)).trans (rfl))

/-! ## Before region 1: the first layer's neighbour sums and bias row -/

theorem at3_v41 (c : Dev nD) : W3 m ρ c (Proc.devRef .tc main_v41) = agg (F := Ideal) (h1 m c) (x1 m c) :=
  (stretch1_v41 (W2 m ρ c)).trans (by rw [at2_v28, at2_v1, at2_v3, at2_v27]; rfl)
theorem at3_v42 (c : Dev nD) : W3 m ρ c (Proc.devRef .tc main_v42) = row5 (F := Ideal) (x3 m c) :=
  (stretch1_v42 (W2 m ρ c)).trans (congrArg (row5 (F := Ideal)) (at2_arg3 m ρ c))
theorem at3_v28 (c : Dev nD) : W3 m ρ c (Proc.devRef .tc main_v28) = h1 m c :=
  (keep_hostOps1 (W2 m ρ c) main_v28 (by decide)).trans (at2_v28 m ρ c)

theorem at3_v12 (c : Dev nD) : W3 m ρ c (Proc.devRef .tc main_v12) = selfw (F := Ideal) (x1 m c) :=
  (keep_hostOps1 (W2 m ρ c) main_v12 (by decide)).trans (at2_v12 m ρ c)

/-! ## After region 1, which is where region 2 starts: the first layer's output -/

theorem at4_v43 (c : Dev nD) : W4 m ρ c (Proc.devRef .tc main_v43) = z1 m c :=
  (W4_arr m ρ c 4).trans ((Region1.final (V3 m ρ) c).trans
    (combine_congr (at3_v41 m ρ c) (at3_v28 m ρ c) (at3_v12 m ρ c) (at3_v42 m ρ c)))
theorem at4_arg4 (c : Dev nD) : W4 m ρ c (Proc.devRef .tc main_arg4) = x4 m c :=
  (W4_of_ne m ρ c main_arg4 (by decide)).trans ((keep_hostOps1 (W2 m ρ c) main_arg4 (by decide)).trans ((W2_of_ne m ρ c main_arg4 (by decide)).trans ((keep_hostOps0 (W0 m ρ c) main_arg4 (by decide)).trans (rfl))))

/-! ## After region 2: the second projected features -/

theorem at5_v44 (c : Dev nD) : W5 m ρ c (Proc.devRef .tc main_v44) = h2 m c :=
  (W5_arr m ρ c 2).trans ((Region2.final (V4 m ρ) c).trans (linear_congr (at4_v43 m ρ c) (at4_arg4 m ρ c)))
theorem at5_v1 (c : Dev nD) : W5 m ρ c (Proc.devRef .tc main_v1) = src (F := Ideal) (x1 m c) :=
  (W5_of_ne m ρ c main_v1 (by decide)).trans ((W4_of_ne m ρ c main_v1 (by decide)).trans ((keep_hostOps1 (W2 m ρ c) main_v1 (by decide)).trans (at2_v1 m ρ c)))

theorem at5_v3 (c : Dev nD) : W5 m ρ c (Proc.devRef .tc main_v3) = dst (F := Ideal) (x1 m c) :=
  (W5_of_ne m ρ c main_v3 (by decide)).trans ((W4_of_ne m ρ c main_v3 (by decide)).trans ((keep_hostOps1 (W2 m ρ c) main_v3 (by decide)).trans (at2_v3 m ρ c)))

theorem at5_v27 (c : Dev nD) : W5 m ρ c (Proc.devRef .tc main_v27) = norm (F := Ideal) (x1 m c) :=
  (W5_of_ne m ρ c main_v27 (by decide)).trans ((W4_of_ne m ρ c main_v27 (by decide)).trans ((keep_hostOps1 (W2 m ρ c) main_v27 (by decide)).trans (at2_v27 m ρ c)))

theorem at5_arg5 (c : Dev nD) : W5 m ρ c (Proc.devRef .tc main_arg5) = x5 m c :=
  (W5_of_ne m ρ c main_arg5 (by decide)).trans ((W4_of_ne m ρ c main_arg5 (by decide)).trans ((keep_hostOps1 (W2 m ρ c) main_arg5 (by decide)).trans ((W2_of_ne m ρ c main_arg5 (by decide)).trans ((keep_hostOps0 (W0 m ρ c) main_arg5 (by decide)).trans (rfl)))))

/-! ## Before region 3: the second layer's neighbour sums and bias row -/

theorem at6_v57 (c : Dev nD) : W6 m ρ c (Proc.devRef .tc main_v57) = agg (F := Ideal) (h2 m c) (x1 m c) :=
  (stretch3_v57 (W5 m ρ c)).trans (by rw [at5_v44, at5_v1, at5_v3, at5_v27]; rfl)
theorem at6_v58 (c : Dev nD) : W6 m ρ c (Proc.devRef .tc main_v58) = row5 (F := Ideal) (x5 m c) :=
  (stretch3_v58 (W5 m ρ c)).trans (congrArg (row5 (F := Ideal)) (at5_arg5 m ρ c))
theorem at6_v44 (c : Dev nD) : W6 m ρ c (Proc.devRef .tc main_v44) = h2 m c :=
  (keep_hostOps3 (W5 m ρ c) main_v44 (by decide)).trans (at5_v44 m ρ c)

theorem at6_v12 (c : Dev nD) : W6 m ρ c (Proc.devRef .tc main_v12) = selfw (F := Ideal) (x1 m c) :=
  (keep_hostOps3 (W5 m ρ c) main_v12 (by decide)).trans ((W5_of_ne m ρ c main_v12 (by decide)).trans (((W4_arr m ρ c 2).trans (((dat1 (V3 m ρ) c).arrAt_in 2 rfl _).trans (A_eq1 (V3 m ρ) c 2))).trans (at3_v12 m ρ c)))

/-! ## After region 3: the second layer's output -/

theorem at7_v59 (c : Dev nD) : W7 m ρ c (Proc.devRef .tc main_v59) = z2 m c :=
  (W7_arr m ρ c 4).trans ((Region3.final (V6 m ρ) c).trans
    (combine_congr (at6_v57 m ρ c) (at6_v44 m ρ c) (at6_v12 m ρ c) (at6_v58 m ρ c)))
theorem at7_arg7 (c : Dev nD) : W7 m ρ c (Proc.devRef .tc main_arg7) = x7 m c :=
  (W7_of_ne m ρ c main_arg7 (by decide)).trans ((keep_hostOps3 (W5 m ρ c) main_arg7 (by decide)).trans ((W5_of_ne m ρ c main_arg7 (by decide)).trans ((W4_of_ne m ρ c main_arg7 (by decide)).trans ((keep_hostOps1 (W2 m ρ c) main_arg7 (by decide)).trans ((W2_of_ne m ρ c main_arg7 (by decide)).trans ((keep_hostOps0 (W0 m ρ c) main_arg7 (by decide)).trans (rfl)))))))

/-! ## Before region 4 -/

theorem at8_v60 (c : Dev nD) : W8 m ρ c (Proc.devRef .tc main_v60) = row7 (F := Ideal) (x7 m c) :=
  (stretch4_v60 (W7 m ρ c)).trans (congrArg (row7 (F := Ideal)) (at7_arg7 m ρ c))
theorem at8_v59 (c : Dev nD) : W8 m ρ c (Proc.devRef .tc main_v59) = z2 m c :=
  (keep_hostOps4 (W7 m ρ c) main_v59 (by decide)).trans (at7_v59 m ρ c)

theorem at8_arg6 (c : Dev nD) : W8 m ρ c (Proc.devRef .tc main_arg6) = x6 m c :=
  (keep_hostOps4 (W7 m ρ c) main_arg6 (by decide)).trans ((W7_of_ne m ρ c main_arg6 (by decide)).trans ((keep_hostOps3 (W5 m ρ c) main_arg6 (by decide)).trans ((W5_of_ne m ρ c main_arg6 (by decide)).trans ((W4_of_ne m ρ c main_arg6 (by decide)).trans ((keep_hostOps1 (W2 m ρ c) main_arg6 (by decide)).trans ((W2_of_ne m ρ c main_arg6 (by decide)).trans ((keep_hostOps0 (W0 m ρ c) main_arg6 (by decide)).trans (rfl))))))))

/-! ## After region 4: the result -/

theorem at9_v61 (c : Dev nD) : W9 m ρ c (Proc.devRef .tc main_v61)
    = net (x0 m c) (x1 m c) (x2 m c) (x3 m c) (x4 m c) (x5 m c) (x6 m c) (x7 m c) :=
  (W9_arr m ρ c 3).trans ((Region4.final (V8 m ρ) c).trans
    (linearBias_congr (at8_v59 m ρ c) (at8_arg6 m ρ c) (at8_v60 m ρ c)))

/-! ## The run -/

/-- Every weakly fair execution of the idealized kernel ends with the result array at the network of the launch
    contents of its arguments, and with the arguments unchanged. -/
theorem run : θ_run defs (onTc (τ := τ) (main (F := Ideal))) ⟨m, fun _ => 0, ρ⟩ (fun r => ∀ c : Dev nD,
      r.2.mem ((c.tc : Thread nD τ).loc main_v61) = net (x0 m c) (x1 m c) (x2 m c) (x3 m c) (x4 m c) (x5 m c) (x6 m c) (x7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (at9_v61 m ρ c), (h c).2⟩) (RunValue.run_result m ρ)

end Cert.KernelIdeal.KernelValue

end
-- ==== Proof.RefShared.lean ====
/-
  The host chain the two programs share. The reference computes the degrees' inverse square roots and each layer's
  neighbour sums with the very operations the kernel's program uses (slices of the edge array, the wrap-around of
  negative node indices, gathers, the scatter-adds), applied to the same arrays: the two spellings are one term, and
  the arrays are never opened.
-/
import proofs.«166702_j61160334295401_1_alg».proof.Proof.Gen.ReferenceIdeal.Read
import proofs.«166702_j61160334295401_1_alg».proof.Proof.KernelValue

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! ## The shared host chain: the same operations in both programs -/

/-- The degrees' inverse square roots. -/
theorem dis_eq (x1 : (⟨S2x3200000, .i32⟩ : BufTy).Contents (Elt Ideal)) :
    val_main_v10 (F := Ideal) x1 = Cert.KernelIdeal.Chain.dis (F := Ideal) x1 := rfl

/-- The first layer's neighbour sums. -/
theorem agg1_eq (x0 : (⟨S100000x256, .f32⟩ : BufTy).Contents (Elt Ideal)) (x1 : (⟨S2x3200000, .i32⟩ : BufTy).Contents (Elt Ideal))
    (x2 : (⟨S256x5, .f32⟩ : BufTy).Contents (Elt Ideal)) :
    val_main_v39 (F := Ideal) x0 x1 x2 = Cert.KernelIdeal.Chain.agg (F := Ideal) (val_main_v11 (F := Ideal) x0 x2) x1 := rfl

/-- The second layer's neighbour sums. -/
theorem agg2_eq (x0 : (⟨S100000x256, .f32⟩ : BufTy).Contents (Elt Ideal)) (x1 : (⟨S2x3200000, .i32⟩ : BufTy).Contents (Elt Ideal))
    (x2 : (⟨S256x5, .f32⟩ : BufTy).Contents (Elt Ideal)) (x3 : (⟨S5, .f32⟩ : BufTy).Contents (Elt Ideal))
    (x4 : (⟨S5x5, .f32⟩ : BufTy).Contents (Elt Ideal)) :
    val_main_v77 (F := Ideal) x0 x1 x2 x3 x4 = Cert.KernelIdeal.Chain.agg (F := Ideal) (val_main_v49 (F := Ideal) x0 x1 x2 x3 x4) x1 := rfl

end Cert.ReferenceIdeal.RefValue

end
-- ==== Proof.RefLayer.lean ====
/-
  One layer's dense tail in the reference, entry by entry. After the neighbours' sums the reference adds the features
  times dis · dis — a per-node vector broadcast to a column and then along each row's entries — and the bias — a vector
  broadcast to a row and then over the rows — and clips at the zero word. Read at (p, q) that is
  max(A(p, q) + h(p, q) · (D(p) · D(p)) + b(q), 0), which is the kernel's layer at (p, q): there the self weight is
  the same product re-laid as a column and the bias the same vector re-laid as a row.
-/
import proofs.«166702_j61160334295401_1_alg».proof.Proof.Gen.ReferenceIdeal.Read
import proofs.«166702_j61160334295401_1_alg».proof.Proof.KernelValue
import proofs.«166702_j61160334295401_1_alg».proof.Proof.LibKeepdims
import Idealize.ShloMosaic.Lib.ValueLayout

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-- A per-node vector broadcast to a column and then along each row's entries reads, at (p, q), the vector's entry p. -/
theorem bcast_node (y : (⟨S100000, .f32⟩ : BufTy).Contents (Elt Ideal)) (p : Fin 100000) (q : Fin 5) :
    broadcastInDim S100000x5 ![0, 1] bcast_S100000x1_S100000x5_0_1 (broadcastInDim S100000x1 ![0] bcast_S100000_S100000x1_0 y) (ix2 p q)
      = y (ix1 p) := by
  refine (broadcastInDim_apply _ bcast_S100000x1_S100000x5_0_1 _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])).trans ?_
  exact broadcastInDim_apply _ bcast_S100000_S100000x1_0 y (ix2 p (0 : Fin 1)) (ix1 p) (fun a => match a with
    | ⟨0, _⟩ => by show p.val = if (100000 : Nat) = 1 then 0 else p.val; rw [if_neg (by decide)])

/-- A bias vector broadcast to a row and then over the rows reads, at (p, q), the vector's entry q. -/
theorem bcast_bias (b : (⟨S5, .f32⟩ : BufTy).Contents (Elt Ideal)) (p : Fin 100000) (q : Fin 5) :
    broadcastInDim S100000x5 ![0, 1] bcast_S1x5_S100000x5_0_1 (broadcastInDim S1x5 ![1] bcast_S5_S1x5_1 b) (ix2 p q) = b (ix1 q) := by
  refine (broadcastInDim_apply _ bcast_S1x5_S100000x5_0_1 _ (ix2 p q) (ix2 (0 : Fin 1) q) (fun a => match a with
    | ⟨0, _⟩ => by show 0 = if (1 : Nat) = 1 then 0 else p.val; rw [if_pos rfl]
    | ⟨1, _⟩ => by show q.val = if (5 : Nat) = 1 then 0 else q.val; rw [if_neg (by decide)])).trans ?_
  exact broadcastInDim_apply _ bcast_S5_S1x5_1 b (ix2 (0 : Fin 1) q) (ix1 q) (fun a => match a with
    | ⟨0, _⟩ => by show q.val = if (5 : Nat) = 1 then 0 else q.val; rw [if_neg (by decide)])

/-- The zero word broadcast over the array reads the zero word everywhere. -/
theorem bcast_zero (p : Fin 100000) (q : Fin 5) :
    broadcastInDim S100000x5 ![] bcast_S_S100000x5 (constant (F := Ideal) S_ .f32 0x00000000#32) (ix2 p q)
      = Ideal.ofBits .f32 0x00000000#32 :=
  broadcastInDim_apply _ bcast_S_S100000x5 (constant (F := Ideal) S_ .f32 0x00000000#32) (ix2 p q) ix0 (fun a => a.elim0)

/-- The reference's tail of a layer — neighbours' sums `A`, plus the features times D · D broadcast over each row's
    entries, plus the bias broadcast over the rows, clipped at the zero word — read at an entry (p, q). -/
theorem tail_apply (h A : (⟨S100000x5, .f32⟩ : BufTy).Contents (Elt Ideal)) (D : (⟨S100000, .f32⟩ : BufTy).Contents (Elt Ideal))
    (b : (⟨S5, .f32⟩ : BufTy).Contents (Elt Ideal)) (p : Fin 100000) (q : Fin 5) :
    maximumf (addf (addf A (mulf h (broadcastInDim S100000x5 ![0, 1] bcast_S100000x1_S100000x5_0_1
        (broadcastInDim S100000x1 ![0] bcast_S100000_S100000x1_0 (mulf D D)))))
      (broadcastInDim S100000x5 ![0, 1] bcast_S1x5_S100000x5_0_1 (broadcastInDim S1x5 ![1] bcast_S5_S1x5_1 b)))
      (broadcastInDim S100000x5 ![] bcast_S_S100000x5 (constant (F := Ideal) S_ .f32 0x00000000#32)) (ix2 p q)
    = max (A (ix2 p q) + h (ix2 p q) * (D (ix1 p) * D (ix1 p)) + b (ix1 q)) (Ideal.ofBits .f32 0x00000000#32) := by
  rw [maximumf_apply, addf_apply, addf_apply, mulf_apply, bcast_node, bcast_bias, bcast_zero, mulf_apply]

/-- With the neighbours' sums `A` and the vector `D` left as they are: entry by entry the tail is the dense combination
    of `A`, the features, the column D · D and the bias row. -/
theorem tail_eq_combine (h A : (⟨S100000x5, .f32⟩ : BufTy).Contents (Elt Ideal)) (D : (⟨S100000, .f32⟩ : BufTy).Contents (Elt Ideal))
    (b : (⟨S5, .f32⟩ : BufTy).Contents (Elt Ideal)) :
    maximumf (addf (addf A (mulf h (broadcastInDim S100000x5 ![0, 1] bcast_S100000x1_S100000x5_0_1
        (broadcastInDim S100000x1 ![0] bcast_S100000_S100000x1_0 (mulf D D)))))
      (broadcastInDim S100000x5 ![0, 1] bcast_S1x5_S100000x5_0_1 (broadcastInDim S1x5 ![1] bcast_S5_S1x5_1 b)))
      (broadcastInDim S100000x5 ![] bcast_S_S100000x5 (constant (F := Ideal) S_ .f32 0x00000000#32))
    = Cert.Gcn.combine A h (shapeCast Cert.KernelIdeal.S100000x1 (mulf (F := Ideal) (s := S100000) (φ := .f32) D D) Cert.KernelIdeal.Facts₀.shapeCasts_S100000_S100000x1)
        (shapeCast Cert.KernelIdeal.S1x5 b Cert.KernelIdeal.Facts₀.shapeCasts_S5_S1x5) := by
  funext i
  obtain ⟨p, q, rfl⟩ : ∃ (p : Fin 100000) (q : Fin 5), i = ix2 p q := ⟨i 0, i 1, eq_ix2 i⟩
  have e3 : shapeCast Cert.KernelIdeal.S100000x1 (mulf (F := Ideal) (s := S100000) (φ := .f32) D D) Cert.KernelIdeal.Facts₀.shapeCasts_S100000_S100000x1 (ix2 p (0 : Fin 1)) = D (ix1 p) * D (ix1 p) :=
    (shapeCast_a_a1_apply (mulf (F := Ideal) (s := S100000) (φ := .f32) D D) Cert.KernelIdeal.Facts₀.shapeCasts_S100000_S100000x1 p (0 : Fin 1)).trans (mulf_apply D D (ix1 p))
  have e4 : shapeCast Cert.KernelIdeal.S1x5 b Cert.KernelIdeal.Facts₀.shapeCasts_S5_S1x5 (ix2 (0 : Fin 1) q) = b (ix1 q) :=
    shapeCast_a_1a_apply b Cert.KernelIdeal.Facts₀.shapeCasts_S5_S1x5 (0 : Fin 1) q
  rw [tail_apply, Cert.Gcn.combine_apply, e3, e4]

/-- So the tail is the kernel's layer, when `A` is the neighbours' sum of `h` and `D` the degrees' inverse square
    roots: the kernel's self weight is D · D re-laid as a column, its bias a row. -/
theorem layer_eq (h A : (⟨S100000x5, .f32⟩ : BufTy).Contents (Elt Ideal)) (D : (⟨S100000, .f32⟩ : BufTy).Contents (Elt Ideal))
    (e : (⟨S2x3200000, .i32⟩ : BufTy).Contents (Elt Ideal)) (b : (⟨S5, .f32⟩ : BufTy).Contents (Elt Ideal))
    (hA : A = Cert.KernelIdeal.Chain.agg (F := Ideal) h e) (hD : D = Cert.KernelIdeal.Chain.dis (F := Ideal) e) :
    maximumf (addf (addf A (mulf h (broadcastInDim S100000x5 ![0, 1] bcast_S100000x1_S100000x5_0_1
        (broadcastInDim S100000x1 ![0] bcast_S100000_S100000x1_0 (mulf D D)))))
      (broadcastInDim S100000x5 ![0, 1] bcast_S1x5_S100000x5_0_1 (broadcastInDim S1x5 ![1] bcast_S5_S1x5_1 b)))
      (broadcastInDim S100000x5 ![] bcast_S_S100000x5 (constant (F := Ideal) S_ .f32 0x00000000#32))
    = Cert.KernelIdeal.KernelValue.layer h e b := by
  refine (tail_eq_combine h A D b).trans ?_
  subst hA hD
  rfl

end Cert.ReferenceIdeal.RefValue

end
-- ==== Proof.RefDots.lean ====
/-
  The reference's three matrix products, read at an entry: each `dot_general` is, at the ideal instance, the sum over
  the contracted axis of the left operand's row times the right operand's column — the whole-array product
  `Gcn.linear` — and the last one is followed by the bias vector broadcast to a row and over the rows.
-/
import proofs.«166702_j61160334295401_1_alg».proof.Proof.Gen.ReferenceIdeal.Read
import proofs.«166702_j61160334295401_1_alg».proof.Proof.KernelValue
import Idealize.ShloMosaic.Lib.ValueLayout

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! ## The three matrix products -/

theorem dot1_eq (x0 : (⟨S100000x256, .f32⟩ : BufTy).Contents (Elt Ideal)) (x2 : (⟨S256x5, .f32⟩ : BufTy).Contents (Elt Ideal)) :
    val_main_v11 (F := Ideal) x0 x2 = Cert.Gcn.linear x0 x2 := by
  funext i
  obtain ⟨p, q, rfl⟩ : ∃ (p : Fin 100000) (q : Fin 5), i = ix2 p q := ⟨i 0, i 1, eq_ix2 i⟩
  rw [val_main_v11_apply, Cert.Gcn.linear_apply]
  refine Finset.sum_congr rfl fun k _ => ?_
  have el : lidx_main_v11 (ix2 p q) k = ix2 p k := funext fun a => Fin.ext (by match a with | ⟨0, _⟩ => rfl | ⟨1, _⟩ => rfl)
  have er : ridx_main_v11 (ix2 p q) k = ix2 k q := funext fun a => Fin.ext (by match a with | ⟨0, _⟩ => rfl | ⟨1, _⟩ => rfl)
  rw [el, er]

theorem dot2_eq (x0 : (⟨S100000x256, .f32⟩ : BufTy).Contents (Elt Ideal)) (x1 : (⟨S2x3200000, .i32⟩ : BufTy).Contents (Elt Ideal))
    (x2 : (⟨S256x5, .f32⟩ : BufTy).Contents (Elt Ideal)) (x3 : (⟨S5, .f32⟩ : BufTy).Contents (Elt Ideal))
    (x4 : (⟨S5x5, .f32⟩ : BufTy).Contents (Elt Ideal)) :
    val_main_v49 (F := Ideal) x0 x1 x2 x3 x4 = Cert.Gcn.linear (val_main_v48 (F := Ideal) x0 x1 x2 x3) x4 := by
  funext i
  obtain ⟨p, q, rfl⟩ : ∃ (p : Fin 100000) (q : Fin 5), i = ix2 p q := ⟨i 0, i 1, eq_ix2 i⟩
  rw [val_main_v49_apply, Cert.Gcn.linear_apply]
  refine Finset.sum_congr rfl fun k _ => ?_
  have el : lidx_main_v49 (ix2 p q) k = ix2 p k := funext fun a => Fin.ext (by match a with | ⟨0, _⟩ => rfl | ⟨1, _⟩ => rfl)
  have er : ridx_main_v49 (ix2 p q) k = ix2 k q := funext fun a => Fin.ext (by match a with | ⟨0, _⟩ => rfl | ⟨1, _⟩ => rfl)
  rw [el, er]

theorem out_eq (x0 : (⟨S100000x256, .f32⟩ : BufTy).Contents (Elt Ideal)) (x1 : (⟨S2x3200000, .i32⟩ : BufTy).Contents (Elt Ideal))
    (x2 : (⟨S256x5, .f32⟩ : BufTy).Contents (Elt Ideal)) (x3 : (⟨S5, .f32⟩ : BufTy).Contents (Elt Ideal))
    (x4 : (⟨S5x5, .f32⟩ : BufTy).Contents (Elt Ideal)) (x5 : (⟨S5, .f32⟩ : BufTy).Contents (Elt Ideal))
    (x6 : (⟨S5x7, .f32⟩ : BufTy).Contents (Elt Ideal)) (x7 : (⟨S7, .f32⟩ : BufTy).Contents (Elt Ideal)) :
    val_main_v90 (F := Ideal) x0 x1 x2 x3 x4 x5 x6 x7
      = Cert.Gcn.linearBias (val_main_v86 (F := Ideal) x0 x1 x2 x3 x4 x5) x6 (Cert.KernelIdeal.Chain.row7 (F := Ideal) x7) := by
  funext i
  obtain ⟨p, q, rfl⟩ : ∃ (p : Fin 100000) (q : Fin 7), i = ix2 p q := ⟨i 0, i 1, eq_ix2 i⟩
  have e4 : Cert.KernelIdeal.Chain.row7 (F := Ideal) x7 (ix2 (0 : Fin 1) q) = x7 (ix1 q) := by
    unfold Cert.KernelIdeal.Chain.row7
    exact shapeCast_a_1a_apply x7 _ (0 : Fin 1) q
  have eb : idx_main_v88 (idx_main_v89 (ix2 p q)) = ix1 q := funext fun a => Fin.ext (by match a with | ⟨0, _⟩ => rfl)
  have hb : val_main_v89 (F := Ideal) x7 (ix2 p q) = x7 (ix1 q) := by
    rw [val_main_v89_apply, val_main_v88_apply, eb]
  have hs : val_main_v87 (F := Ideal) x0 x1 x2 x3 x4 x5 x6 (ix2 p q)
      = ∑ k : Fin 5, val_main_v86 (F := Ideal) x0 x1 x2 x3 x4 x5 (ix2 p k) * x6 (ix2 k q) := by
    rw [val_main_v87_apply]
    refine Finset.sum_congr rfl fun k _ => ?_
    have el : lidx_main_v87 (ix2 p q) k = ix2 p k := funext fun a => Fin.ext (by match a with | ⟨0, _⟩ => rfl | ⟨1, _⟩ => rfl)
    have er : ridx_main_v87 (ix2 p q) k = ix2 k q := funext fun a => Fin.ext (by match a with | ⟨0, _⟩ => rfl | ⟨1, _⟩ => rfl)
    rw [el, er]
  refine (val_main_v90_apply (F := Ideal) x0 x1 x2 x3 x4 x5 x6 x7 (ix2 p q)).trans ?_
  rw [Cert.Gcn.linearBias_apply, e4, hs, hb]
  rfl

end Cert.ReferenceIdeal.RefValue

end
-- ==== Proof.RefValue.lean ====
/-
  The idealized reference computes the same network as the idealized kernel: its result stage, read through its two
  layers (the shared host chain, the dense tail entry by entry) and its three matrix products, is the kernel's
  `net` of the same eight arguments.
-/
import proofs.«166702_j61160334295401_1_alg».proof.Proof.Gen.ReferenceIdeal.Read
import proofs.«166702_j61160334295401_1_alg».proof.Proof.KernelValue
import proofs.«166702_j61160334295401_1_alg».proof.Proof.RefShared
import proofs.«166702_j61160334295401_1_alg».proof.Proof.RefLayer
import proofs.«166702_j61160334295401_1_alg».proof.Proof.RefDots

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! ## The reference's result is the network -/

theorem layer1_eq (x0 : (⟨S100000x256, .f32⟩ : BufTy).Contents (Elt Ideal)) (x1 : (⟨S2x3200000, .i32⟩ : BufTy).Contents (Elt Ideal))
    (x2 : (⟨S256x5, .f32⟩ : BufTy).Contents (Elt Ideal)) (x3 : (⟨S5, .f32⟩ : BufTy).Contents (Elt Ideal)) :
    val_main_v48 (F := Ideal) x0 x1 x2 x3 = Cert.KernelIdeal.KernelValue.layer (val_main_v11 (F := Ideal) x0 x2) x1 x3 :=
  layer_eq (val_main_v11 (F := Ideal) x0 x2) (val_main_v39 (F := Ideal) x0 x1 x2) (val_main_v10 (F := Ideal) x1) x1 x3
    (agg1_eq x0 x1 x2) (dis_eq x1)

theorem layer2_eq (x0 : (⟨S100000x256, .f32⟩ : BufTy).Contents (Elt Ideal)) (x1 : (⟨S2x3200000, .i32⟩ : BufTy).Contents (Elt Ideal))
    (x2 : (⟨S256x5, .f32⟩ : BufTy).Contents (Elt Ideal)) (x3 : (⟨S5, .f32⟩ : BufTy).Contents (Elt Ideal))
    (x4 : (⟨S5x5, .f32⟩ : BufTy).Contents (Elt Ideal)) (x5 : (⟨S5, .f32⟩ : BufTy).Contents (Elt Ideal)) :
    val_main_v86 (F := Ideal) x0 x1 x2 x3 x4 x5 = Cert.KernelIdeal.KernelValue.layer (val_main_v49 (F := Ideal) x0 x1 x2 x3 x4) x1 x5 :=
  layer_eq (val_main_v49 (F := Ideal) x0 x1 x2 x3 x4) (val_main_v77 (F := Ideal) x0 x1 x2 x3 x4) (val_main_v10 (F := Ideal) x1) x1 x5
    (agg2_eq x0 x1 x2 x3 x4) (dis_eq x1)

/-- The reference's result stage is the kernel's network of the same arguments. -/
theorem result_eq (x0 : (⟨S100000x256, .f32⟩ : BufTy).Contents (Elt Ideal)) (x1 : (⟨S2x3200000, .i32⟩ : BufTy).Contents (Elt Ideal))
    (x2 : (⟨S256x5, .f32⟩ : BufTy).Contents (Elt Ideal)) (x3 : (⟨S5, .f32⟩ : BufTy).Contents (Elt Ideal))
    (x4 : (⟨S5x5, .f32⟩ : BufTy).Contents (Elt Ideal)) (x5 : (⟨S5, .f32⟩ : BufTy).Contents (Elt Ideal))
    (x6 : (⟨S5x7, .f32⟩ : BufTy).Contents (Elt Ideal)) (x7 : (⟨S7, .f32⟩ : BufTy).Contents (Elt Ideal)) :
    val_main_v90 (F := Ideal) x0 x1 x2 x3 x4 x5 x6 x7 = Cert.KernelIdeal.KernelValue.net x0 x1 x2 x3 x4 x5 x6 x7 := by
  rw [out_eq, layer2_eq, dot2_eq, layer1_eq, dot1_eq]
  rfl

end Cert.ReferenceIdeal.RefValue

end
-- ==== Proof.lean ====
/-
  A two-layer graph convolution followed by a linear read-out, as five pallas_calls among host gathers and
  scatter-adds, against the same network written with jnp on the host.

  At the ideal instance both programs compute, from node features x, an edge array e and three weight/bias pairs,
      out = (layer (layer (x · W1) e b1 · W2) e b2) · W3 + b3,
      layer h e b = max(agg h e + h · selfw e + b, 0),
  where agg h e scatter-adds over each edge's destination the features gathered at its source times the edge's
  weight dis[src] · dis[dst], dis = (in-degree + 1)^(-1/2), and selfw = dis · dis. The kernel does the three matrix
  products and the two layer tails in row blocks of 5000 (a change of float format is the identity at the ideal
  instance, the product's accumulator is the zero word) and everything else on the host, with the very operations the
  reference uses; so the two results are one function of the arguments, and no law of the extended reals beyond the
  definitions is needed — in particular nothing here needs the inputs to be finite.

  Modules: KernelRun (the kernel's run with its result named), Spec (the dense pieces as whole-array functions),
  Payloads (what each body stores, at an entry), Region0 … Region4 (each region's result array as a whole-array
  function of what the region was entered with), Chain (the host stretches), KernelValue (the kernel's result as the
  network), RefValue (the reference's result as the network). Here: the five claims.
-/
import proofs.«166702_j61160334295401_1_alg».proof.Defs
import proofs.«166702_j61160334295401_1_alg».proof.Proof.Gen.Kernel
import proofs.«166702_j61160334295401_1_alg».proof.Proof.Gen.Kernel.Frame
import proofs.«166702_j61160334295401_1_alg».proof.Proof.Gen.KernelIdeal
import proofs.«166702_j61160334295401_1_alg».proof.Proof.Gen.KernelIdeal.Frame
import proofs.«166702_j61160334295401_1_alg».proof.Proof.Gen.ReferenceIdeal
import proofs.«166702_j61160334295401_1_alg».proof.Proof.Gen.ReferenceIdeal.Run
import proofs.«166702_j61160334295401_1_alg».proof.Proof.Gen.ReferenceIdeal.Read
import proofs.«166702_j61160334295401_1_alg».proof.Proof.Gen.Pre_finite_inputs
import proofs.«166702_j61160334295401_1_alg».proof.Proof.KernelValue
import proofs.«166702_j61160334295401_1_alg».proof.Proof.RefValue
import Idealize.ShloMosaic.Adequacy
import Idealize.ShloMosaic.Init

noncomputable section

namespace Cert.Proof

open Idealize.ShloMosaic Idealize.SL.Sem

/-- The word-level kernel runs, faults nowhere, and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the network of the arguments in their result arrays: the kernel by its run read
    through its nine segment boundaries, the reference by its run read one operation at a time. -/
theorem algebraic : Cert.algebraic_KernelIdeal_ReferenceIdeal := by
  intro m ρ m' ρ' _ hagree
  refine ⟨fun c => Cert.KernelIdeal.KernelValue.net (Cert.KernelIdeal.KernelValue.x0 m c) (Cert.KernelIdeal.KernelValue.x1 m c)
      (Cert.KernelIdeal.KernelValue.x2 m c) (Cert.KernelIdeal.KernelValue.x3 m c) (Cert.KernelIdeal.KernelValue.x4 m c)
      (Cert.KernelIdeal.KernelValue.x5 m c) (Cert.KernelIdeal.KernelValue.x6 m c) (Cert.KernelIdeal.KernelValue.x7 m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v90_eq m' c, e0, e1, e2, e3, e4, e5, e6, e7]
  exact Cert.ReferenceIdeal.RefValue.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
